-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x2048x128 .f32) (main_arg1 : FVec F S4x2048x2048 .f32) (main_arg2 : FVec F S128x128 .f32) (main_arg3 : FVec F S128 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S1x128 : Shape := ⟨2, ![1, 128]⟩
abbrev S1x512x128 : Shape := ⟨3, ![1, 512, 128]⟩
abbrev S1x128x2048 : Shape := ⟨3, ![1, 128, 2048]⟩
abbrev S1x2048x128 : Shape := ⟨3, ![1, 2048, 128]⟩
abbrev S512x128 : Shape := ⟨2, ![512, 128]⟩
abbrev S128x2048 : Shape := ⟨2, ![128, 2048]⟩
abbrev S2048x128 : Shape := ⟨2, ![2048, 128]⟩

abbrev nBuf : Space → Nat
  | .hbm => 6
  | .vmem => 14
  | .smem => 0
  | _ => 0

abbrev bufTy : (tb : Table) → Fin (tcTables nBuf tb) → BufTy
  | .hbm, ⟨0, _⟩ => ⟨S4x2048x128, .f32⟩
  | .hbm, ⟨1, _⟩ => ⟨S4x2048x2048, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S4x2048x128, .f32⟩
  | .local _ .vmem, ⟨0, _⟩ => ⟨S1x512x128, .f32⟩
  | .local _ .vmem, ⟨1, _⟩ => ⟨S1x512x128, .f32⟩
  | .local _ .vmem, ⟨2, _⟩ => ⟨S128x128, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128, .f32⟩
  | .local _ .vmem, ⟨12, _⟩ => ⟨S1x2048x128, .f32⟩
  | .local _ .vmem, ⟨13, _⟩ => ⟨S1x2048x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v28 : BitVec 1 := Scalar.cmpi .eq arg1 c0_i32
  let v29 : BitVec 32 := Scalar.extui v28
  let c0_i32_20 : BitVec 32 := 0#32
  let v30 : BitVec 1 := Scalar.cmpi .ne v29 c0_i32_20
  v30

def k0_cond2 (i : grid0.Coords) : BitVec 1 :=
  let arg1 : BitVec 32 := BitVec.ofNat 32 (i 1).val
  let c0_i32_21 : BitVec 32 := 0#32
  let v31 : BitVec 1 := Scalar.cmpi .ne arg1 c0_i32_21
  let v32 : BitVec 32 := Scalar.extui v31
  let c0_i32_22 : BitVec 32 := 0#32
  let v33 : BitVec 1 := Scalar.cmpi .ne v32 c0_i32_22
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c0_i32 : BitVec 32 := 0#32
  let c0_i32_0 : BitVec 32 := 0#32
  ![arg0.toNat, v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S128_S1x128 : S128.ShapeCasts S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  slices_S512x128_o0_0_S128x128 : S512x128.Slices ![0, 0] S128x128
  slices_S512x128_o128_0_S128x128 : S512x128.Slices ![128, 0] S128x128
  slices_S512x128_o256_0_S128x128 : S512x128.Slices ![256, 0] S128x128
  slices_S512x128_o384_0_S128x128 : S512x128.Slices ![384, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S512x128_S128x128_S512x128_1_0_0_1_n_n_wf : DotDims.WF S512x128 S128x128 S512x128 [1] [0] [0] [1] [] []
  dot_S128x2048_S128x128_S2048x128_0_0_1_1_n_n_wf : DotDims.WF S128x2048 S128x128 S2048x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x2048x128.size a
  hwx0_0 : ∀ i : grid0.Coords, EltTy.bits .f32 = 32 ∨ (Rect.block (s := S4x2048x128) S1x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S4x2048x2048.size a
  hwx0_2 : ∀ i : grid0.Coords, EltTy.bits .f32 = 32 ∨ (Rect.block (s := S4x2048x2048) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S4x2048x2048.size a
  hwx0_3 : ∀ i : grid0.Coords, EltTy.bits .f32 = 32 ∨ (Rect.block (s := S4x2048x2048) S1x128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S4x2048x2048.size a
  hwx0_4 : ∀ i : grid0.Coords, EltTy.bits .f32 = 32 ∨ (Rect.block (s := S4x2048x2048) S1x128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x2048.size a ≤ S4x2048x2048.size a
  hwx0_5 : ∀ i : grid0.Coords, EltTy.bits .f32 = 32 ∨ (Rect.block (s := S4x2048x2048) S1x128x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x128.size a ≤ S4x2048x128.size a
  hwx0_7 : ∀ i : grid0.Coords, EltTy.bits .f32 = 32 ∨ (Rect.block (s := S4x2048x128) S1x2048x128.size (cc0_transform_7 i) (hinb0_7 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S128x2048_S128x128_S2048x128_0_0_1_1_n_n : DotDims S128x2048 S128x128 S2048x128 where
  lhsContracting := [0]
  rhsContracting := [0]
  lhsNonContracting := [1]
  rhsNonContracting := [1]
  lhsBatch := []
  rhsBatch := []
  wf := dot_S128x2048_S128x128_S2048x128_0_0_1_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1x128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v0) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) | ⟨_ + 8, h⟩ => absurd h (Nat.not_lt.2 (Nat.le_add_left _ _))

class Facts : Prop extends Facts₀ where

variable [Facts]
-- ==== ReferenceIdeal.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S1x1x128 : Shape := ⟨3, ![1, 1, 128]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x2048, .f32⟩
  | .hbm, ⟨2, _⟩ => ⟨S128x128, .f32⟩
  | .hbm, ⟨3, _⟩ => ⟨S128, .f32⟩
  | .hbm, ⟨4, _⟩ => ⟨S4x2048x128, .f32⟩
  | .hbm, ⟨5, _⟩ => ⟨S4x2048x128, .f32⟩
  | .hbm, ⟨6, _⟩ => ⟨S1x1x128, .f32⟩
  | .hbm, ⟨7, _⟩ => ⟨S4x2048x128, .f32⟩
  | .hbm, ⟨8, _⟩ => ⟨S4x2048x128, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x2048x128_0_1_2 : S1x1x128.BroadcastsInDim S4x2048x128 (![0, 1, 2] : Fin 3 → Fin S4x2048x128.rank)
  dot_S4x2048x128_S128x128_S4x2048x128_2_0_01_1_n_n_wf : DotDims.WF S4x2048x128 S128x128 S4x2048x128 [2] [0] [0, 1] [1] [] []
  dot_S4x2048x2048_S4x2048x128_S4x2048x128_1_1_2_2_0_0_wf : DotDims.WF S4x2048x2048 S4x2048x128 S4x2048x128 [1] [1] [2] [2] [0] [0]

variable [Facts₀]

def dot_S4x2048x128_S128x128_S4x2048x128_2_0_01_1_n_n : DotDims S4x2048x128 S128x128 S4x2048x128 where
  lhsContracting := [2]
  rhsContracting := [0]
  lhsNonContracting := [0, 1]
  rhsNonContracting := [1]
  lhsBatch := []
  rhsBatch := []
  wf := dot_S4x2048x128_S128x128_S4x2048x128_2_0_01_1_n_n_wf
def dot_S4x2048x2048_S4x2048x128_S4x2048x128_1_1_2_2_0_0 : DotDims S4x2048x2048 S4x2048x128 S4x2048x128 where
  lhsContracting := [1]
  rhsContracting := [1]
  lhsNonContracting := [2]
  rhsNonContracting := [2]
  lhsBatch := [0]
  rhsBatch := [0]
  wf := dot_S4x2048x2048_S4x2048x128_S4x2048x128_1_1_2_2_0_0_wf

class Facts : Prop extends Facts₀ where

variable [Facts]
-- ==== Proof.K.Runs.lean ====
/-
  One launch of the graph-convolution kernel, on a 4 × 4 grid (batch entry b, stretch j of 512 adjacency rows): what
  the point-by-point runs share.

  The region is entered after one host operation (the bias vector given a leading unit axis), so the arrays the
  region finds (`V`) are the launch contents after that operation; the four argument arrays are untouched by it.
  The body branches on the second grid coordinate only: at j = 0 it stores its partial product plus the bias into the
  output block, at j ≠ 0 it adds its partial product to what the block holds. Over the grid's 16 points in
  row-major order that is "the point's number is ≡ 0 (mod 4)" and its negation.
-/
import proofs.«139176_g62397284876833_cont_9to1c4b_236_6_alg».proof.Proof.Gen.Kernel.Launch
import proofs.«139176_g62397284876833_cont_9to1c4b_236_6_alg».proof.Proof.Gen.Kernel.Skeleton
import proofs.«139176_g62397284876833_cont_9to1c4b_236_6_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the one host operation before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes none of the four argument arrays. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions over the grid -/

/-- "This is the first stretch" holds at the points ≡ 0 (mod 4), -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- and "this is a later stretch" at the others. -/
theorem hcond2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-! ## The staging memrefs at a point -/

/-- One staging buffer of the output window, through which its contents are stated. -/
abbrev VO : View sig .tc .vmem S1x2048x128 .f32 := (Memref.whole cc0_stg7_0 : Memref sig .tc .vmem S1x2048x128 .f32).view

abbrev ms0 (t : Fin cfg0.N) : Memref sig .tc .vmem S1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2048x128 .f32 := win0_7.stage (cfg0.slots t 7)
abbrev hs7 (t : Fin cfg0.N) : (ms7 t).IsWhole := hstage0_7 ((cfg0.slots t 7).cast nbuf0_7)

end Cert.Kernel.Hand

end
-- ==== Proof.K.RunA.lean ====
/-
  The body at a point of the first stretch (j = 0), run on any whole staging memrefs: the seven input buffers at
  given contents, the output buffer at anything. The body reads the inputs, reads the output buffer once without
  using what it read, and stores one whole block into it; the inputs are left as they were. What the output buffer
  ends with is recorded as the list of stores the run met (one store), found by the run itself.
-/
import proofs.«139176_g62397284876833_cont_9to1c4b_236_6_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer at a first-stretch point, with the proof that the body runs to a
    continuation that is handed the inputs unchanged and the output buffer with those stores written. -/
noncomputable def kernelRunA (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole)
    (hc1 : k0_cond1 i = 1#1) (hc2 : ¬ k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) :
    { L : List (View.Piece (Elt F) S1x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Hand

end
-- ==== Proof.K.RunB.lean ====
/-
  The body at a point of a later stretch (j ≠ 0), run on any whole staging memrefs: the seven input buffers and the
  output buffer at given contents. The body reads the inputs (the bias buffer is not read here), reads the output
  buffer, and stores back one whole block: what it read plus its partial product. The inputs are left as they were;
  the stores the run met are recorded, found by the run itself.
-/
import proofs.«139176_g62397284876833_cont_9to1c4b_236_6_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer at a later-stretch point, with the proof that the body runs to a
    continuation that is handed the inputs unchanged and the output buffer with those stores written. -/
noncomputable def kernelRunB (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole)
    (hc1 : ¬ k0_cond1 i = 1#1) (hc2 : k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) (xo : Vec F S1x2048x128 .f32) :
    { L : List (View.Piece (Elt F) S1x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Hand

end
-- ==== Proof.K.Frame.lean ====
/-
  The frame of the graph-convolution kernel's launch: the proof data of its one pipeline, the body obligation at
  every grid point, and the run.

  The output block of batch entry b is revisited at the four points (b, 0), …, (b, 3) and written back after the
  last of them; between them its staging buffer carries the running total. What the buffer holds after point number
  n is therefore defined by recursion on n (`outsAt`): at a point ≡ 0 (mod 4) what the first-stretch run stores, at
  the others what the later-stretch run stores over what the point before left.

  Four of the seven input windows read one array, the adjacency, each a different 128-row chunk of the point's
  stretch. The array is only read, so at entry its full share is cut into four quarters, one per window
  (`arrays_of_bufs`); every other array is held whole by its one window. The kernel keeps nothing outside the
  staging buffers, so the region's invariant is empty, and the one unstaged buffer (the bias vector before its
  reshape) bypasses the region.
-/
import proofs.«139176_g62397284876833_cont_9to1c4b_236_6_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer -/

/-- The first-stretch run's one store covers the output block. -/
theorem coverA (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole) (hc1 : k0_cond1 i = 1#1) (hc2 : ¬ k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) (y : S1x2048x128.Idx) :
    ∃ pc ∈ (kernelRunA c i arg2 harg2 arg3 harg3 arg4 harg4 arg5 harg5 arg6 harg6 arg7 harg7 arg8 harg8 arg9 harg9 hc1 hc2 x0 x1 x2 x3 x4 x5 x6).1, y ∈ pc.1.set :=
  View.cover_of_tiledL (kernelRunA c i arg2 harg2 arg3 harg3 arg4 harg4 arg5 harg5 arg6 harg6 arg7 harg7 arg8 harg8 arg9 harg9 hc1 hc2 x0 x1 x2 x3 x4 x5 x6).1 S1x2048x128.size (by sl_kernel_rfl) y

/-- What a first-stretch point leaves in the output buffer: its stores read back. -/
def outA (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole) (hc1 : k0_cond1 i = 1#1) (hc2 : ¬ k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) : Vec F S1x2048x128 .f32 :=
  VO.read (Elt F) (VO.writes (Elt F) VO.junk (kernelRunA c i arg2 harg2 arg3 harg3 arg4 harg4 arg5 harg5 arg6 harg6 arg7 harg7 arg8 harg8 arg9 harg9 hc1 hc2 x0 x1 x2 x3 x4 x5 x6).1)

/-- The later-stretch run's one store covers the output block. -/
theorem coverB (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole) (hc1 : ¬ k0_cond1 i = 1#1) (hc2 : k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) (xo : Vec F S1x2048x128 .f32) (y : S1x2048x128.Idx) :
    ∃ pc ∈ (kernelRunB c i arg2 harg2 arg3 harg3 arg4 harg4 arg5 harg5 arg6 harg6 arg7 harg7 arg8 harg8 arg9 harg9 hc1 hc2 x0 x1 x2 x3 x4 x5 x6 xo).1, y ∈ pc.1.set :=
  View.cover_of_tiledL (kernelRunB c i arg2 harg2 arg3 harg3 arg4 harg4 arg5 harg5 arg6 harg6 arg7 harg7 arg8 harg8 arg9 harg9 hc1 hc2 x0 x1 x2 x3 x4 x5 x6 xo).1 S1x2048x128.size (by sl_kernel_rfl) y

/-- What a later-stretch point leaves in the output buffer, over what it found there. -/
def outB (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole) (hc1 : ¬ k0_cond1 i = 1#1) (hc2 : k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) (xo : Vec F S1x2048x128 .f32) : Vec F S1x2048x128 .f32 :=
  VO.read (Elt F) (VO.writes (Elt F) VO.junk (kernelRunB c i arg2 harg2 arg3 harg3 arg4 harg4 arg5 harg5 arg6 harg6 arg7 harg7 arg8 harg8 arg9 harg9 hc1 hc2 x0 x1 x2 x3 x4 x5 x6 xo).1)

/-! ## The running total, point by point -/

/-- What the output's staging buffer holds after the body at point number `n`. -/
def outsAt (c : Dev nD) : (n : ℕ) → n < cfg0.N → Vec F S1x2048x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) ((hcond1 ⟨0, hn⟩).mpr (Nat.zero_mod _)) (fun h => (hcond2 ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 4 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) ((hcond1 ⟨n + 1, hn⟩).mpr h0) (fun h => (hcond2 ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))

/-- At a first-stretch point: that case's contents. -/
theorem outsAt_A (c : Dev nD) (t : Fin cfg0.N) (h0 : t.val % 4 = 0) :
    outsAt m c t.val t.isLt = outA c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond1 t).mpr h0) (fun h => (hcond2 t).mp h h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- At a later-stretch point: that case's contents over what the point before left. -/
theorem outsAt_B (c : Dev nD) (t : Fin cfg0.N) (h0 : ¬t.val % 4 = 0) :
    outsAt m c t.val t.isLt = outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) ((hcond2 t).mpr h0) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The pipeline's proof data on core `c`: the arrays as the region finds them; after the body each input's buffer
    at its block and the output's at the running total; nothing kept outside the staging buffers; the adjacency
    array's share cut in four among the windows that read it, every other array held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ _ := iprop(emp)
  q w := match w with
    | ⟨0, _⟩ => fullShare
    | ⟨1, _⟩ => fullShare
    | ⟨2, _⟩ => fullShare.left.left
    | ⟨3, _⟩ => fullShare.left.right
    | ⟨4, _⟩ => fullShare.right.left
    | ⟨5, _⟩ => fullShare.right.right
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outsAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-- The output window is stored into at every point: one of the two branches is always taken. -/
theorem live7 : ∀ i : grid0.Coords, cfg0.idle 7 i = false := by decide +kernel

/-- At a later-stretch point the output's staging buffer holds what the point before left: the point is not the
    first, and the block was not written back in between. -/
theorem before7_B (c : Dev nD) (t : Fin cfg0.N) (h0 : ¬t.val % 4 = 0) (d) :
    (dats m 0 c).before 7 t d = outsAt m c (t.val - 1) (Nat.lt_of_le_of_lt (Nat.sub_le _ _) t.isLt) := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    live7 (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- The body at any point: the inputs' buffers hold their blocks; the point's number decides the case; at a later
    stretch the output's buffer holds the running total so far; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  by_cases h0 : t.val % 4 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunA c (grid0.coords t) _ _ _ _ _ _ _ _ _ _ _ _ _ _ _ _ ((hcond1 t).mpr h0) (fun h => (hcond2 t).mp h h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _ _)
  · rw [outsAt_B m c t h0]
    simp only [before7_B m c t h0]
    unfold outB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunB c (grid0.coords t) _ _ _ _ _ _ _ _ _ _ _ _ _ _ _ _ (fun h => h0 ((hcond1 t).mp h)) ((hcond2 t).mpr h0) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c _ _ _ _ _ _ _ _ _ _ _ _ _ _ _ _ _ _ _ _ _ _ _ _ _ _ _)

end Cert.Kernel.Hand

end
-- ==== Proof.K.Run.lean ====
/-
  The run of the graph-convolution kernel's launch, and its frame.

  The launch theorem for a region whose input windows may read one array asks how the buffers behind the arrays, each
  held whole at entry, become the pipeline's per-window holdings: here the adjacency array's full share is halved
  twice into four quarters, one for each of the four windows that read it, and every other array goes whole to its
  one window. Then every weakly fair execution terminates, each window's array ends at what the proof data compute
  for it (an input: its entry contents), and the one buffer no window stages ends as the region found it. Read at
  the four argument arrays that is the frame: they end as launched.
-/
import proofs.«139176_g62397284876833_cont_9to1c4b_236_6_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

set_option maxHeartbeats 1600000 in
/-- The library's body obligation, at every point: the windows listed one by one, the output window never idle. -/
theorem body_obligation (c : Dev nD) : BodyObligation (dats (F := F) m 0 c) (defs₀ (F := F)) Variants.none () Set.univ := fun t => by
  rw [bigSep_W0, bigSep_W0]
  have h7 : idle0 (7 : Fin 8) (grid0.coords t) = false := live7 _
  simp only [h7]
  exact sound_body m c t

/-! ## The arrays at entry, window by window -/

/-- The buffers behind the eight windows' arrays are five. -/
theorem arrRefs_eq : Finset.univ.image (Pipeline.arrRef spec0) = ({main_arg0, main_arg2, main_arg1, main_call0_v0, main_v0} : Finset (Ref sig .tc)) := by
  decide

omit [FloatOps F] in
/-- Five conjuncts one by one. -/
theorem bigSep_five (Φ : Ref sig .tc → sProp 𝕄) :
    bigSep ({main_arg0, main_arg2, main_arg1, main_call0_v0, main_v0} : Finset (Ref sig .tc)) Φ
      = iprop(Φ main_arg0 ∗ Φ main_arg2 ∗ Φ main_arg1 ∗ Φ main_call0_v0 ∗ Φ main_v0) := by
  rw [bigSep_insert (by decide), bigSep_insert (by decide), bigSep_insert (by decide), bigSep_insert (by decide), bigSep_singleton]
  rfl

/-- Each window's holding of its array at entry, the array a whole buffer. -/
theorem holding_eq (c : Dev nD) (w : Fin cfg0.W) :
    (((cfg0.win w).arr.view.loc (c.tc : Thread nD τ)) ↦[(cfg0.win w).arr.view.set]{(dats m 0 c).share w} (dats m 0 c).arrAt w 0 : sProp 𝕄)
      = (((cfg0.win w).arr.view.loc (c.tc : Thread nD τ)) ↦{(dats m 0 c).share w} (dats m 0 c).arrAt w 0) := by
  rw [(arr_whole0 w).set_eq_univ]

/-- The five buffers whole at entry are the eight windows' holdings: the adjacency array's full share is cut into
    four quarters for the four windows reading it. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_congr (fun w _ => holding_eq m c w), arrRefs_eq, bigSep_W0, bigSep_five]
  iintro ⟨H0, H2, H1, H6, H7⟩
  ihave Hs := (pointsTo_share (PosShare.mem_left_op_right fullShare)).1 $$ H1
  icases Hs with ⟨Hl, Hr⟩
  ihave Hls := (pointsTo_share (PosShare.mem_left_op_right fullShare.left)).1 $$ Hl
  icases Hls with ⟨Hll, Hlr⟩
  ihave Hrs := (pointsTo_share (PosShare.mem_left_op_right fullShare.right)).1 $$ Hr
  icases Hrs with ⟨Hrl, Hrr⟩
  isplitl [H0]; · iexact H0
  isplitl [H2]; · iexact H2
  isplitl [Hll]; · iexact Hll
  isplitl [Hlr]; · iexact Hlr
  isplitl [Hrl]; · iexact Hrl
  isplitl [Hrr]; · iexact Hrr
  isplitl [H6]; · iexact H6
  iexact H7

/-! ## The run -/

-- the launch theorem's implicit arguments are found by unifying its conclusion with this one
set_option backward.isDefEq.respectTransparency.types false in
set_option maxHeartbeats 1600000 in
/-- From any memory with zero counters every weakly fair execution terminates; every window's array ends at what the
    proof data compute, every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [scopedRest0_eq]
      show _ ⊢ (BI.emp : sProp 𝕄)
      iintro ⟨-, -⟩; iempintro)
    (hout := fun c => by
      rw [scopedRest0_eq]
      show (BI.emp : sProp 𝕄) ⊢ _
      iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-! ## The frame -/

/-- The four argument arrays end as launched: the node features, the weight and the adjacency are arrays of input
    windows, which the pipeline only reads; the bias is staged by no window and bypasses the region; and the host
    operation before the region writes none of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c))),
     ((h c).2 main_arg3 (Pipeline.mem_restRefs_of main_arg3 rfl (by decide))).trans (V_main_arg3 m c)⟩) (run_main m ρ)

end Cert.Kernel.Hand

end
-- ==== Proof.KI.Runs.lean ====
/-
  One launch of the graph-convolution kernel, on a 4 × 4 grid (batch entry b, stretch j of 512 adjacency rows): what
  the point-by-point runs share.

  The region is entered after one host operation (the bias vector given a leading unit axis), so the arrays the
  region finds (`V`) are the launch contents after that operation; the four argument arrays are untouched by it.
  The body branches on the second grid coordinate only: at j = 0 it stores its partial product plus the bias into the
  output block, at j ≠ 0 it adds its partial product to what the block holds. Over the grid's 16 points in
  row-major order that is "the point's number is ≡ 0 (mod 4)" and its negation.
-/
import proofs.«139176_g62397284876833_cont_9to1c4b_236_6_alg».proof.Proof.Gen.KernelIdeal.Launch
import proofs.«139176_g62397284876833_cont_9to1c4b_236_6_alg».proof.Proof.Gen.KernelIdeal.Skeleton
import proofs.«139176_g62397284876833_cont_9to1c4b_236_6_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the one host operation before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes none of the four argument arrays. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions over the grid -/

/-- "This is the first stretch" holds at the points ≡ 0 (mod 4), -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- and "this is a later stretch" at the others. -/
theorem hcond2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-! ## The staging memrefs at a point -/

/-- One staging buffer of the output window, through which its contents are stated. -/
abbrev VO : View sig .tc .vmem S1x2048x128 .f32 := (Memref.whole cc0_stg7_0 : Memref sig .tc .vmem S1x2048x128 .f32).view

abbrev ms0 (t : Fin cfg0.N) : Memref sig .tc .vmem S1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2048x128 .f32 := win0_7.stage (cfg0.slots t 7)
abbrev hs7 (t : Fin cfg0.N) : (ms7 t).IsWhole := hstage0_7 ((cfg0.slots t 7).cast nbuf0_7)

end Cert.KernelIdeal.Hand

end
-- ==== Proof.KI.RunA.lean ====
/-
  The body at a point of the first stretch (j = 0), run on any whole staging memrefs: the seven input buffers at
  given contents, the output buffer at anything. The body reads the inputs, reads the output buffer once without
  using what it read, and stores one whole block into it; the inputs are left as they were. What the output buffer
  ends with is recorded as the list of stores the run met (one store), found by the run itself.
-/
import proofs.«139176_g62397284876833_cont_9to1c4b_236_6_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer at a first-stretch point, with the proof that the body runs to a
    continuation that is handed the inputs unchanged and the output buffer with those stores written. -/
noncomputable def kernelRunA (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole)
    (hc1 : k0_cond1 i = 1#1) (hc2 : ¬ k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) :
    { L : List (View.Piece (Elt F) S1x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Hand

end
-- ==== Proof.KI.RunB.lean ====
/-
  The body at a point of a later stretch (j ≠ 0), run on any whole staging memrefs: the seven input buffers and the
  output buffer at given contents. The body reads the inputs (the bias buffer is not read here), reads the output
  buffer, and stores back one whole block: what it read plus its partial product. The inputs are left as they were;
  the stores the run met are recorded, found by the run itself.
-/
import proofs.«139176_g62397284876833_cont_9to1c4b_236_6_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer at a later-stretch point, with the proof that the body runs to a
    continuation that is handed the inputs unchanged and the output buffer with those stores written. -/
noncomputable def kernelRunB (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole)
    (hc1 : ¬ k0_cond1 i = 1#1) (hc2 : k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) (xo : Vec F S1x2048x128 .f32) :
    { L : List (View.Piece (Elt F) S1x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Hand

end
-- ==== Proof.KI.Frame.lean ====
/-
  The frame of the graph-convolution kernel's launch: the proof data of its one pipeline, the body obligation at
  every grid point, and the run.

  The output block of batch entry b is revisited at the four points (b, 0), …, (b, 3) and written back after the
  last of them; between them its staging buffer carries the running total. What the buffer holds after point number
  n is therefore defined by recursion on n (`outsAt`): at a point ≡ 0 (mod 4) what the first-stretch run stores, at
  the others what the later-stretch run stores over what the point before left.

  Four of the seven input windows read one array, the adjacency, each a different 128-row chunk of the point's
  stretch. The array is only read, so at entry its full share is cut into four quarters, one per window
  (`arrays_of_bufs`); every other array is held whole by its one window. The kernel keeps nothing outside the
  staging buffers, so the region's invariant is empty, and the one unstaged buffer (the bias vector before its
  reshape) bypasses the region.
-/
import proofs.«139176_g62397284876833_cont_9to1c4b_236_6_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer -/

/-- The first-stretch run's one store covers the output block. -/
theorem coverA (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole) (hc1 : k0_cond1 i = 1#1) (hc2 : ¬ k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) (y : S1x2048x128.Idx) :
    ∃ pc ∈ (kernelRunA c i arg2 harg2 arg3 harg3 arg4 harg4 arg5 harg5 arg6 harg6 arg7 harg7 arg8 harg8 arg9 harg9 hc1 hc2 x0 x1 x2 x3 x4 x5 x6).1, y ∈ pc.1.set :=
  View.cover_of_tiledL (kernelRunA c i arg2 harg2 arg3 harg3 arg4 harg4 arg5 harg5 arg6 harg6 arg7 harg7 arg8 harg8 arg9 harg9 hc1 hc2 x0 x1 x2 x3 x4 x5 x6).1 S1x2048x128.size (by sl_kernel_rfl) y

/-- What a first-stretch point leaves in the output buffer: its stores read back. -/
def outA (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole) (hc1 : k0_cond1 i = 1#1) (hc2 : ¬ k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) : Vec F S1x2048x128 .f32 :=
  VO.read (Elt F) (VO.writes (Elt F) VO.junk (kernelRunA c i arg2 harg2 arg3 harg3 arg4 harg4 arg5 harg5 arg6 harg6 arg7 harg7 arg8 harg8 arg9 harg9 hc1 hc2 x0 x1 x2 x3 x4 x5 x6).1)

/-- The later-stretch run's one store covers the output block. -/
theorem coverB (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole) (hc1 : ¬ k0_cond1 i = 1#1) (hc2 : k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) (xo : Vec F S1x2048x128 .f32) (y : S1x2048x128.Idx) :
    ∃ pc ∈ (kernelRunB c i arg2 harg2 arg3 harg3 arg4 harg4 arg5 harg5 arg6 harg6 arg7 harg7 arg8 harg8 arg9 harg9 hc1 hc2 x0 x1 x2 x3 x4 x5 x6 xo).1, y ∈ pc.1.set :=
  View.cover_of_tiledL (kernelRunB c i arg2 harg2 arg3 harg3 arg4 harg4 arg5 harg5 arg6 harg6 arg7 harg7 arg8 harg8 arg9 harg9 hc1 hc2 x0 x1 x2 x3 x4 x5 x6 xo).1 S1x2048x128.size (by sl_kernel_rfl) y

/-- What a later-stretch point leaves in the output buffer, over what it found there. -/
def outB (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole) (hc1 : ¬ k0_cond1 i = 1#1) (hc2 : k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) (xo : Vec F S1x2048x128 .f32) : Vec F S1x2048x128 .f32 :=
  VO.read (Elt F) (VO.writes (Elt F) VO.junk (kernelRunB c i arg2 harg2 arg3 harg3 arg4 harg4 arg5 harg5 arg6 harg6 arg7 harg7 arg8 harg8 arg9 harg9 hc1 hc2 x0 x1 x2 x3 x4 x5 x6 xo).1)

/-! ## The running total, point by point -/

/-- What the output's staging buffer holds after the body at point number `n`. -/
def outsAt (c : Dev nD) : (n : ℕ) → n < cfg0.N → Vec F S1x2048x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) ((hcond1 ⟨0, hn⟩).mpr (Nat.zero_mod _)) (fun h => (hcond2 ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 4 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) ((hcond1 ⟨n + 1, hn⟩).mpr h0) (fun h => (hcond2 ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))

/-- At a first-stretch point: that case's contents. -/
theorem outsAt_A (c : Dev nD) (t : Fin cfg0.N) (h0 : t.val % 4 = 0) :
    outsAt m c t.val t.isLt = outA c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond1 t).mpr h0) (fun h => (hcond2 t).mp h h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- At a later-stretch point: that case's contents over what the point before left. -/
theorem outsAt_B (c : Dev nD) (t : Fin cfg0.N) (h0 : ¬t.val % 4 = 0) :
    outsAt m c t.val t.isLt = outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) ((hcond2 t).mpr h0) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The pipeline's proof data on core `c`: the arrays as the region finds them; after the body each input's buffer
    at its block and the output's at the running total; nothing kept outside the staging buffers; the adjacency
    array's share cut in four among the windows that read it, every other array held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ _ := iprop(emp)
  q w := match w with
    | ⟨0, _⟩ => fullShare
    | ⟨1, _⟩ => fullShare
    | ⟨2, _⟩ => fullShare.left.left
    | ⟨3, _⟩ => fullShare.left.right
    | ⟨4, _⟩ => fullShare.right.left
    | ⟨5, _⟩ => fullShare.right.right
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outsAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-- The output window is stored into at every point: one of the two branches is always taken. -/
theorem live7 : ∀ i : grid0.Coords, cfg0.idle 7 i = false := by decide +kernel

/-- At a later-stretch point the output's staging buffer holds what the point before left: the point is not the
    first, and the block was not written back in between. -/
theorem before7_B (c : Dev nD) (t : Fin cfg0.N) (h0 : ¬t.val % 4 = 0) (d) :
    (dats m 0 c).before 7 t d = outsAt m c (t.val - 1) (Nat.lt_of_le_of_lt (Nat.sub_le _ _) t.isLt) := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    live7 (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- The body at any point: the inputs' buffers hold their blocks; the point's number decides the case; at a later
    stretch the output's buffer holds the running total so far; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  by_cases h0 : t.val % 4 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunA c (grid0.coords t) _ _ _ _ _ _ _ _ _ _ _ _ _ _ _ _ ((hcond1 t).mpr h0) (fun h => (hcond2 t).mp h h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _ _)
  · rw [outsAt_B m c t h0]
    simp only [before7_B m c t h0]
    unfold outB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunB c (grid0.coords t) _ _ _ _ _ _ _ _ _ _ _ _ _ _ _ _ (fun h => h0 ((hcond1 t).mp h)) ((hcond2 t).mpr h0) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c _ _ _ _ _ _ _ _ _ _ _ _ _ _ _ _ _ _ _ _ _ _ _ _ _ _ _)

end Cert.KernelIdeal.Hand

end
-- ==== Proof.KI.Blocks.lean ====
/-
  The windows' blocks of the graph-convolution launch, read at coordinates.

  Point number t of the 4 × 4 grid is batch entry b = t / 4, stretch j = t mod 4. There the node-feature window holds
  rows 512 j … 512 j + 511 of entry b, the i-th adjacency window rows 128 (4 j + i) … 128 (4 j + i) + 127 of entry b's
  adjacency matrix, the weight and bias windows their whole arrays, and the output window entry b's whole block. A
  block's coordinate in its array is always index × block size + the coordinate inside the block; the index maps are
  decided once over the grid's sixteen points.
-/
import proofs.«139176_g62397284876833_cont_9to1c4b_236_6_alg».proof.Proof.KI.Frame
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps in closed form, over the grid. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = 4 * (t.val % 4) + 0 ∧ win0_2.index t (2 : Fin 3) = 0
    ∧ win0_3.index t (0 : Fin 3) = t.val / 4 ∧ win0_3.index t (1 : Fin 3) = 4 * (t.val % 4) + 1 ∧ win0_3.index t (2 : Fin 3) = 0
    ∧ win0_4.index t (0 : Fin 3) = t.val / 4 ∧ win0_4.index t (1 : Fin 3) = 4 * (t.val % 4) + 2 ∧ win0_4.index t (2 : Fin 3) = 0
    ∧ win0_5.index t (0 : Fin 3) = t.val / 4 ∧ win0_5.index t (1 : Fin 3) = 4 * (t.val % 4) + 3 ∧ win0_5.index t (2 : Fin 3) = 0
    ∧ win0_6.index t (0 : Fin 2) = 0 ∧ win0_6.index t (1 : Fin 2) = 0
    ∧ win0_7.index t (0 : Fin 3) = t.val / 4 ∧ win0_7.index t (1 : Fin 3) = 0 ∧ win0_7.index t (2 : Fin 3) = 0 :=
  (by decide +kernel : ∀ t : Fin grid0.N, _)

/-- The node-feature block: row r of the point's stretch. -/
theorem blk0_apply (c : Dev nD) (t : Fin cfg0.N) (b j : Fin 4) (hb : b.val = t.val / 4) (hj : j.val = t.val % 4)
    (r : Fin 512) (d : Fin 128) :
    (iblk m c 0 t : S1x512x128.Idx → Elt F .f32) (ix3 0 r d)
      = (V m c main_arg0 : S4x2048x128.Idx → Elt F .f32) (ix3 b ⟨512 * j.val + r.val, by omega⟩ d) := by
  obtain ⟨e0, e1, e2, -⟩ := idx_facts t
  unfold iblk
  rw [View.read_apply]
  show V m c main_arg0 _ = V m c main_arg0 _
  congr 1
  funext a; apply Fin.ext
  match a with
  | ⟨0, _⟩ => show win0_0.index t (0 : Fin 3) * 1 + 1 * 0 = b.val; omega
  | ⟨1, _⟩ => show win0_0.index t (1 : Fin 3) * 512 + 1 * r.val = 512 * j.val + r.val; omega
  | ⟨2, _⟩ => show win0_0.index t (2 : Fin 3) * 128 + 1 * d.val = d.val; omega

/-- The weight block is the weight matrix. -/
theorem blk1_apply (c : Dev nD) (t : Fin cfg0.N) (d f : Fin 128) :
    (iblk m c 1 t : S128x128.Idx → Elt F .f32) (ix2 d f) = (V m c main_arg2 : S128x128.Idx → Elt F .f32) (ix2 d f) := by
  obtain ⟨-, -, -, e0, e1, -⟩ := idx_facts t
  unfold iblk
  rw [View.read_apply]
  show V m c main_arg2 _ = V m c main_arg2 _
  congr 1
  funext a; apply Fin.ext
  match a with
  | ⟨0, _⟩ => show win0_1.index t (0 : Fin 2) * 128 + 1 * d.val = d.val; omega
  | ⟨1, _⟩ => show win0_1.index t (1 : Fin 2) * 128 + 1 * f.val = f.val; omega

/-- Adjacency chunk 0: row k of rows 128 (4 j + 0) … of entry b's matrix. -/
theorem blk2_apply (c : Dev nD) (t : Fin cfg0.N) (b j : Fin 4) (hb : b.val = t.val / 4) (hj : j.val = t.val % 4)
    (k : Fin 128) (n : Fin 2048) :
    (iblk m c 2 t : S1x128x2048.Idx → Elt F .f32) (ix3 0 k n)
      = (V m c main_arg1 : S4x2048x2048.Idx → Elt F .f32) (ix3 b ⟨512 * j.val + 128 * 0 + k.val, by omega⟩ n) := by
  obtain ⟨-, -, -, -, -, e0, e1, e2, -⟩ := idx_facts t
  unfold iblk
  rw [View.read_apply]
  show V m c main_arg1 _ = V m c main_arg1 _
  congr 1
  funext a; apply Fin.ext
  match a with
  | ⟨0, _⟩ => show win0_2.index t (0 : Fin 3) * 1 + 1 * 0 = b.val; omega
  | ⟨1, _⟩ => show win0_2.index t (1 : Fin 3) * 128 + 1 * k.val = 512 * j.val + 128 * 0 + k.val; omega
  | ⟨2, _⟩ => show win0_2.index t (2 : Fin 3) * 2048 + 1 * n.val = n.val; omega

/-- Adjacency chunk 1: row k of rows 128 (4 j + 1) … of entry b's matrix. -/
theorem blk3_apply (c : Dev nD) (t : Fin cfg0.N) (b j : Fin 4) (hb : b.val = t.val / 4) (hj : j.val = t.val % 4)
    (k : Fin 128) (n : Fin 2048) :
    (iblk m c 3 t : S1x128x2048.Idx → Elt F .f32) (ix3 0 k n)
      = (V m c main_arg1 : S4x2048x2048.Idx → Elt F .f32) (ix3 b ⟨512 * j.val + 128 * 1 + k.val, by omega⟩ n) := by
  obtain ⟨-, -, -, -, -, -, -, -, e0, e1, e2, -⟩ := idx_facts t
  unfold iblk
  rw [View.read_apply]
  show V m c main_arg1 _ = V m c main_arg1 _
  congr 1
  funext a; apply Fin.ext
  match a with
  | ⟨0, _⟩ => show win0_3.index t (0 : Fin 3) * 1 + 1 * 0 = b.val; omega
  | ⟨1, _⟩ => show win0_3.index t (1 : Fin 3) * 128 + 1 * k.val = 512 * j.val + 128 * 1 + k.val; omega
  | ⟨2, _⟩ => show win0_3.index t (2 : Fin 3) * 2048 + 1 * n.val = n.val; omega

/-- Adjacency chunk 2: row k of rows 128 (4 j + 2) … of entry b's matrix. -/
theorem blk4_apply (c : Dev nD) (t : Fin cfg0.N) (b j : Fin 4) (hb : b.val = t.val / 4) (hj : j.val = t.val % 4)
    (k : Fin 128) (n : Fin 2048) :
    (iblk m c 4 t : S1x128x2048.Idx → Elt F .f32) (ix3 0 k n)
      = (V m c main_arg1 : S4x2048x2048.Idx → Elt F .f32) (ix3 b ⟨512 * j.val + 128 * 2 + k.val, by omega⟩ n) := by
  obtain ⟨-, -, -, -, -, -, -, -, -, -, -, e0, e1, e2, -⟩ := idx_facts t
  unfold iblk
  rw [View.read_apply]
  show V m c main_arg1 _ = V m c main_arg1 _
  congr 1
  funext a; apply Fin.ext
  match a with
  | ⟨0, _⟩ => show win0_4.index t (0 : Fin 3) * 1 + 1 * 0 = b.val; omega
  | ⟨1, _⟩ => show win0_4.index t (1 : Fin 3) * 128 + 1 * k.val = 512 * j.val + 128 * 2 + k.val; omega
  | ⟨2, _⟩ => show win0_4.index t (2 : Fin 3) * 2048 + 1 * n.val = n.val; omega

/-- Adjacency chunk 3: row k of rows 128 (4 j + 3) … of entry b's matrix. -/
theorem blk5_apply (c : Dev nD) (t : Fin cfg0.N) (b j : Fin 4) (hb : b.val = t.val / 4) (hj : j.val = t.val % 4)
    (k : Fin 128) (n : Fin 2048) :
    (iblk m c 5 t : S1x128x2048.Idx → Elt F .f32) (ix3 0 k n)
      = (V m c main_arg1 : S4x2048x2048.Idx → Elt F .f32) (ix3 b ⟨512 * j.val + 128 * 3 + k.val, by omega⟩ n) := by
  obtain ⟨-, -, -, -, -, -, -, -, -, -, -, -, -, -, e0, e1, e2, -⟩ := idx_facts t
  unfold iblk
  rw [View.read_apply]
  show V m c main_arg1 _ = V m c main_arg1 _
  congr 1
  funext a; apply Fin.ext
  match a with
  | ⟨0, _⟩ => show win0_5.index t (0 : Fin 3) * 1 + 1 * 0 = b.val; omega
  | ⟨1, _⟩ => show win0_5.index t (1 : Fin 3) * 128 + 1 * k.val = 512 * j.val + 128 * 3 + k.val; omega
  | ⟨2, _⟩ => show win0_5.index t (2 : Fin 3) * 2048 + 1 * n.val = n.val; omega

/-- The bias block is the reshaped bias row. -/
theorem blk6_apply (c : Dev nD) (t : Fin cfg0.N) (f : Fin 128) :
    (iblk m c 6 t : S1x128.Idx → Elt F .f32) (ix2 0 f) = (V m c main_call0_v0 : S1x128.Idx → Elt F .f32) (ix2 0 f) := by
  obtain ⟨-, -, -, -, -, -, -, -, -, -, -, -, -, -, -, -, -, e0, e1, -⟩ := idx_facts t
  unfold iblk
  rw [View.read_apply]
  show V m c main_call0_v0 _ = V m c main_call0_v0 _
  congr 1
  funext a; apply Fin.ext
  match a with
  | ⟨0, _⟩ => show win0_6.index t (0 : Fin 2) * 1 + 1 * 0 = 0; omega
  | ⟨1, _⟩ => show win0_6.index t (1 : Fin 2) * 128 + 1 * f.val = f.val; omega

/-- The reshaped bias row, as the region finds it, is the bias vector as launched. -/
theorem bias_row (c : Dev nD) (f : Fin 128) :
    (V m c main_call0_v0 : S1x128.Idx → Elt F .f32) (ix2 0 f) = (m ((c : Thread nD τ).loc main_arg3) : S128.Idx → Elt F .f32) (ix1 f) := by
  have e : (V m c main_call0_v0 : S1x128.Idx → Elt F .f32)
      = shapeCast S1x128 (m ((c : Thread nD τ).loc main_arg3) : S128.Idx → Elt F .f32) shapeCasts_S128_S1x128 := by
    dsimp only [V, hostOps0]; after_results; rfl
  rw [e]
  refine shapeCast_apply _ _ (ix2 0 f) (ix1 f) ?_
  show (S128.rowMajor (ix1 f)).val = (S1x128.rowMajor (ix2 0 f)).val
  rw [Shape.rowMajor_val_one, Shape.rowMajor_val_two]
  show f.val = 0 * 128 + f.val
  omega

end Cert.KernelIdeal.Hand

end
-- ==== Proof.KI.Pieces.lean ====
/-
  What the two cases' runs leave in the output buffer, in closed form.

  Each case stores the output block once, whole, and loads whole buffers; so the block it leaves is its one store's
  value with every load replaced by the buffer's contents: at a first-stretch point the partial product of the point's
  blocks plus the bias row, at a later-stretch point what the buffer held plus the partial product.
-/
import proofs.«139176_g62397284876833_cont_9to1c4b_236_6_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- A first-stretch point leaves the partial product of its blocks plus the bias row. -/
theorem outA_eq (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole) (hc1 : k0_cond1 i = 1#1) (hc2 : ¬ k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) : outA c i arg2 harg2 arg3 harg3 arg4 harg4 arg5 harg5 arg6 harg6 arg7 harg7 arg8 harg8 arg9 harg9 hc1 hc2 x0 x1 x2 x3 x4 x5 x6 = k0_pay3 x0 x1 x2 x3 x4 x5 x6 := by
  unfold outA
  rw [View.read_writes_eq_canon _ _ _ (coverA c i arg2 harg2 arg3 harg3 arg4 harg4 arg5 harg5 arg6 harg6 arg7 harg7 arg8 harg8 arg9 harg9 hc1 hc2 x0 x1 x2 x3 x4 x5 x6)]
  unfold kernelRunA
  dsimp only
  rw [View.canon_unit_zero zero3]
  simp only [View.readAt_eq_ld, harg2.read_unread, harg3.read_unread, harg4.read_unread, harg5.read_unread, harg6.read_unread,
    harg7.read_unread, harg8.read_unread, View.ld_unit_zero (S := S1x512x128) zero3, View.ld_unit_zero (S := S128x128) zero2,
    View.ld_unit_zero (S := S1x128x2048) zero3, View.ld_unit_zero (S := S1x128) zero2]

/-- A later-stretch point leaves what the buffer held plus the partial product of its blocks. -/
theorem outB_eq (c : Dev nD) (i : grid0.Coords) (arg2 : Memref sig .tc .vmem S1x512x128 .f32) (harg2 : arg2.IsWhole) (arg3 : Memref sig .tc .vmem S128x128 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128 .f32) (harg8 : arg8.IsWhole) (arg9 : Memref sig .tc .vmem S1x2048x128 .f32) (harg9 : arg9.IsWhole) (hc1 : ¬ k0_cond1 i = 1#1) (hc2 : k0_cond2 i = 1#1)
    (x0 : Vec F S1x512x128 .f32) (x1 : Vec F S128x128 .f32) (x2 : Vec F S1x128x2048 .f32) (x3 : Vec F S1x128x2048 .f32) (x4 : Vec F S1x128x2048 .f32) (x5 : Vec F S1x128x2048 .f32) (x6 : Vec F S1x128 .f32) (xo : Vec F S1x2048x128 .f32) :
    outB c i arg2 harg2 arg3 harg3 arg4 harg4 arg5 harg5 arg6 harg6 arg7 harg7 arg8 harg8 arg9 harg9 hc1 hc2 x0 x1 x2 x3 x4 x5 x6 xo = k0_pay1 (k0_pay2 x0 x1 x2 x3 x4 x5) xo := by
  unfold outB
  rw [View.read_writes_eq_canon _ _ _ (coverB c i arg2 harg2 arg3 harg3 arg4 harg4 arg5 harg5 arg6 harg6 arg7 harg7 arg8 harg8 arg9 harg9 hc1 hc2 x0 x1 x2 x3 x4 x5 x6 xo)]
  unfold kernelRunB
  dsimp only
  rw [View.canon_unit_zero zero3]
  simp only [View.readAt_eq_ld, harg2.read_unread, harg3.read_unread, harg4.read_unread, harg5.read_unread, harg6.read_unread,
    harg7.read_unread, harg9.read_unread, View.ld_unit_zero (S := S1x512x128) zero3, View.ld_unit_zero (S := S128x128) zero2,
    View.ld_unit_zero (S := S1x128x2048) zero3, View.ld_unit_zero (S := S1x2048x128) zero3]

end Cert.KernelIdeal.Hand

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibColDot.lean ====
/-
  A matrix product that contracts the leading axis of both operands, read at an index.

  The dimension numbers of a [c, a] × [c, b] → [a, b] product contract the left operand's axis 0 with the right
  operand's axis 0 and have no batch axis: the left operand enters transposed. At result index (p, q) and contraction
  position k the left operand is read at (k, p) and the right operand at (k, q), so the sum over the contraction
  shape's one-axis index set is the sum over k : Fin c of lhs (k, p) * rhs (k, q) — in any commutative additive monoid
  with a product, the extended reals included. The statement is over variable extents; a printed record with these six
  lists is this one by reflexivity.
-/
import Idealize.ShloMosaic.Lib.ValueIdx
import Idealize.ShloMosaic.PureOps.Ideal.Laws

noncomputable section

namespace Cert.Lib.ColDot

open Idealize.ShloMosaic Idealize.ShloMosaic.ValueIdx
open scoped BigOperators

variable {a c b : Nat}

/-- The dimension numbers of the product [c, a] × [c, b] → [a, b] contracting the leading axes. -/
abbrev dims (wf : DotDims.WF ⟨2, ![c, a]⟩ ⟨2, ![c, b]⟩ ⟨2, ![a, b]⟩ [0] [0] [1] [1] [] []) :
    DotDims ⟨2, ![c, a]⟩ ⟨2, ![c, b]⟩ ⟨2, ![a, b]⟩ where
  lhsContracting := [0]
  rhsContracting := [0]
  lhsNonContracting := [1]
  rhsNonContracting := [1]
  lhsBatch := []
  rhsBatch := []
  wf := wf

variable (wf : DotDims.WF ⟨2, ![c, a]⟩ ⟨2, ![c, b]⟩ ⟨2, ![a, b]⟩ [0] [0] [1] [1] [] [])

/-- The left operand's row is the contraction position. -/
theorem lhs_row (i : (⟨2, ![a, b]⟩ : Shape).Idx) (k : (dims wf).contr.Idx) :
    ((dims wf).lhsIdx i k 0).val = (k ⟨0, Nat.one_pos⟩).val :=
  (dims wf).lhsIdx_val_of_single rfl i k

/-- The left operand's column is the result's row. -/
theorem lhs_col (i : (⟨2, ![a, b]⟩ : Shape).Idx) (k : (dims wf).contr.Idx) :
    ((dims wf).lhsIdx i k 1).val = (i 0).val := by
  unfold DotDims.lhsIdx
  rw [dif_neg (show ¬(1 : Fin 2) ∈ (dims wf).lhsBatch from List.not_mem_nil),
    dif_pos (show (1 : Fin 2) ∈ (dims wf).lhsNonContracting from List.mem_singleton.mpr rfl)]
  rfl

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (k, p) times the right operand at (k, q). -/
theorem sum_apply {M : Type*} [AddCommMonoid M] [Mul M] (lhs : (⟨2, ![c, a]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 k p) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 k p :=
    funext fun ax => Fin.ext (by
      match ax with
      | ⟨0, _⟩ => exact (lhs_row wf _ _).trans hk
      | ⟨1, _⟩ => exact lhs_col wf _ _)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![c, a]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 k p) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![c, a]⟩ φ₁)
    (rhs : FVec Ideal ⟨2, ![c, b]⟩ φ₂) (p : Fin a) (q : Fin b) :
    Host.dotGeneral (dims wf) prec lhs rhs (ix2 p q) = ∑ k : Fin c, lhs (ix2 k p) * rhs (ix2 k q) :=
  (Ideal.dotGeneral_apply (dims wf) prec _ lhs rhs (ix2 p q)).trans (sum_apply wf lhs rhs p q)

end Cert.Lib.ColDot

end
-- ==== Proof.KI.Pay.lean ====
/-
  The kernel body's arithmetic, read at an index on the extended reals.

  One step of the kernel holds a stretch of 512 rows of node features, the weight matrix and four chunks of 128 rows
  of the adjacency. It projects the stretch through the weight (a plain product into a zero accumulator), and for
  each chunk multiplies the chunk, entering transposed (the contraction runs over the chunk's rows), by the matching
  128 rows of the projection, again into a zero accumulator; the four products are added left to right. Rounding to
  the narrower float type is the identity on exact values, and a cast that drops or adds a leading unit axis, a
  unit-stride slice and a row broadcast only move indices. Read at (n, f) the step's value is therefore the sum over
  the four chunks i of ∑ k, adj (k, n) · (∑ d, x (128 i + k, d) · w (d, f)). The first step adds the bias row to it;
  a later step adds it to what the result already holds.
-/
import proofs.«139176_g62397284876833_cont_9to1c4b_236_6_alg».proof.Proof.Gen.KernelIdeal.Skeleton
import proofs.«139176_g62397284876833_cont_9to1c4b_236_6_alg».proof.Proof.LibPlainDot
import proofs.«139176_g62397284876833_cont_9to1c4b_236_6_alg».proof.Proof.LibColDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The projected features of row r of the stretch, at feature f. -/
def sup (x0 : Vec Ideal S1x512x128 .f32) (x1 : Vec Ideal S128x128 .f32) (r : Fin 512) (f : Fin 128) : EReal :=
  ∑ d : Fin 128, x0 (ix3 (0 : Fin 1) r d) * x1 (ix2 d f)

/-- Chunk i of the stretch: the chunk's 128 adjacency rows against rows 128 i, …, 128 i + 127 of the projection. -/
def chunkv (xa : Vec Ideal S1x128x2048 .f32) (x0 : Vec Ideal S1x512x128 .f32) (x1 : Vec Ideal S128x128 .f32)
    (i : Fin 4) (n : Fin 2048) (f : Fin 128) : EReal :=
  ∑ k : Fin 128, xa (ix3 (0 : Fin 1) k n) * sup x0 x1 ⟨128 * i.val + k.val, by omega⟩ f

/-- The projection of the stretch as the kernel forms it: the stretch without its unit axis times the weight, into a
    zero accumulator, rounded to the narrower type. -/
abbrev proj (x0 : Vec Ideal S1x512x128 .f32) (x1 : Vec Ideal S128x128 .f32) : FVec Ideal S512x128 .bf16 :=
  truncf .bf16 (matmul (φ₁ := .f32) (φ₂ := .f32) dot_S512x128_S128x128_S512x128_1_0_0_1_n_n none
    (shapeCast S512x128 x0 shapeCasts_S1x512x128_S512x128) x1 (constant S512x128 .f32 0x00000000#32)) bitsLt_bf16_f32

/-- One chunk's product as the kernel forms it: the chunk without its unit axis, rounded, contracted along its rows
    against the 128 rows of the projection that start at row `off`, into a zero accumulator. -/
abbrev part (x0 : Vec Ideal S1x512x128 .f32) (x1 : Vec Ideal S128x128 .f32) (xa : Vec Ideal S1x128x2048 .f32)
    (off : Nat) (hs : S512x128.Slices ![off, 0] S128x128) : FVec Ideal S2048x128 .f32 :=
  matmul (φ₁ := .bf16) (φ₂ := .bf16) dot_S128x2048_S128x128_S2048x128_0_0_1_1_n_n none
    (truncf .bf16 (shapeCast S128x2048 xa shapeCasts_S1x128x2048_S128x2048) bitsLt_bf16_f32)
    (extractStridedSlice S128x128 ![off, 0] (proj x0 x1) hs) (constant S2048x128 .f32 0x00000000#32)

/-- The projection at (r, f) is the projected feature. -/
theorem proj_apply (x0 : Vec Ideal S1x512x128 .f32) (x1 : Vec Ideal S128x128 .f32) (r : Fin 512) (f : Fin 128) :
    proj x0 x1 (ix2 r f) = sup x0 x1 r f := by
  refine (Cert.Lib.PlainDot.matmul_zero_apply (φ₁ := .f32) (φ₂ := .f32) dot_S512x128_S128x128_S512x128_1_0_0_1_n_n_wf none
    (shapeCast S512x128 x0 shapeCasts_S1x512x128_S512x128) x1 r f).trans ?_
  refine Finset.sum_congr rfl fun d _ => ?_
  exact congrArg (· * x1 (ix2 d f)) (shapeCast_1ab_ab_apply x0 shapeCasts_S1x512x128_S512x128 r d)

/-- A chunk's product is a product contracting the leading axes of both operands, into a zero accumulator. -/
theorem part_eq (x0 : Vec Ideal S1x512x128 .f32) (x1 : Vec Ideal S128x128 .f32) (xa : Vec Ideal S1x128x2048 .f32)
    (off : Nat) (hs : S512x128.Slices ![off, 0] S128x128) (n : Fin 2048) (f : Fin 128) :
    part x0 x1 xa off hs (ix2 n f)
      = matmul (φ₁ := .bf16) (φ₂ := .bf16) (Cert.Lib.ColDot.dims dot_S128x2048_S128x128_S2048x128_0_0_1_1_n_n_wf) none
          (truncf .bf16 (shapeCast S128x2048 xa shapeCasts_S1x128x2048_S128x2048) bitsLt_bf16_f32)
          (extractStridedSlice S128x128 ![off, 0] (proj x0 x1) hs) (constant ⟨2, ![2048, 128]⟩ .f32 0x00000000#32) (ix2 n f) := rfl

/-- A chunk's product at (n, f), when its slice of the projection starts at row 128 i, is chunk i. -/
theorem part_apply (x0 : Vec Ideal S1x512x128 .f32) (x1 : Vec Ideal S128x128 .f32) (xa : Vec Ideal S1x128x2048 .f32)
    (off : Nat) (hs : S512x128.Slices ![off, 0] S128x128) (i : Fin 4) (hoff : off = 128 * i.val)
    (n : Fin 2048) (f : Fin 128) : part x0 x1 xa off hs (ix2 n f) = chunkv xa x0 x1 i n f := by
  refine (part_eq x0 x1 xa off hs n f).trans ?_
  have key := Cert.Lib.ColDot.matmul_zero_apply (φ₁ := .bf16) (φ₂ := .bf16) dot_S128x2048_S128x128_S2048x128_0_0_1_1_n_n_wf none
    (truncf .bf16 (shapeCast S128x2048 xa shapeCasts_S1x128x2048_S128x2048) bitsLt_bf16_f32)
    (extractStridedSlice S128x128 ![off, 0] (proj x0 x1) hs) n f
  refine key.trans ?_
  refine Finset.sum_congr rfl fun k _ => ?_
  have hl : shapeCast S128x2048 xa shapeCasts_S1x128x2048_S128x2048 (ix2 k n) = xa (ix3 (0 : Fin 1) k n) :=
    shapeCast_1ab_ab_apply xa shapeCasts_S1x128x2048_S128x2048 k n
  have hlt : 128 * i.val + k.val < 512 := by omega
  have hr : extractStridedSlice S128x128 ![off, 0] (proj x0 x1) hs (ix2 k f) = sup x0 x1 ⟨128 * i.val + k.val, hlt⟩ f := by
    refine (extractStridedSlice_apply ![off, 0] (proj x0 x1) hs (ix2 k f) (ix2 ⟨128 * i.val + k.val, hlt⟩ f) fun a => ?_).trans
      (proj_apply x0 x1 _ f)
    match a with
    | ⟨0, _⟩ => show 128 * i.val + k.val = off + k.val; omega
    | ⟨1, _⟩ => show f.val = 0 + f.val; omega
  exact congrArg₂ (· * ·) hl hr

/-- The step's value is its four chunk products, added left to right. -/
theorem pay2_eq (x0 : Vec Ideal S1x512x128 .f32) (x1 : Vec Ideal S128x128 .f32) (x2 x3 x4 x5 : Vec Ideal S1x128x2048 .f32) :
    k0_pay2 (F := Ideal) x0 x1 x2 x3 x4 x5
      = addf (addf (addf (part x0 x1 x2 0 slices_S512x128_o0_0_S128x128) (part x0 x1 x3 128 slices_S512x128_o128_0_S128x128))
          (part x0 x1 x4 256 slices_S512x128_o256_0_S128x128)) (part x0 x1 x5 384 slices_S512x128_o384_0_S128x128) := rfl

/-- The step's value at (n, f): its four chunks, added left to right. -/
theorem pay2_apply (x0 : Vec Ideal S1x512x128 .f32) (x1 : Vec Ideal S128x128 .f32)
    (x2 x3 x4 x5 : Vec Ideal S1x128x2048 .f32) (n : Fin 2048) (f : Fin 128) :
    k0_pay2 (F := Ideal) x0 x1 x2 x3 x4 x5 (ix2 n f)
      = ((chunkv x2 x0 x1 0 n f + chunkv x3 x0 x1 1 n f) + chunkv x4 x0 x1 2 n f) + chunkv x5 x0 x1 3 n f := by
  rw [pay2_eq]
  show ((part x0 x1 x2 0 slices_S512x128_o0_0_S128x128 (ix2 n f) + part x0 x1 x3 128 slices_S512x128_o128_0_S128x128 (ix2 n f))
      + part x0 x1 x4 256 slices_S512x128_o256_0_S128x128 (ix2 n f)) + part x0 x1 x5 384 slices_S512x128_o384_0_S128x128 (ix2 n f) = _
  rw [part_apply x0 x1 x2 0 _ 0 rfl n f, part_apply x0 x1 x3 128 _ 1 rfl n f, part_apply x0 x1 x4 256 _ 2 rfl n f,
    part_apply x0 x1 x5 384 _ 3 rfl n f]

/-- The first step's stored value at (0, n, f): the step's value plus the bias row at f. -/
theorem pay3_apply (x0 : Vec Ideal S1x512x128 .f32) (x1 : Vec Ideal S128x128 .f32)
    (x2 x3 x4 x5 : Vec Ideal S1x128x2048 .f32) (x6 : Vec Ideal S1x128 .f32) (n : Fin 2048) (f : Fin 128) :
    k0_pay3 (F := Ideal) x0 x1 x2 x3 x4 x5 x6 (ix3 (0 : Fin 1) n f)
      = k0_pay2 (F := Ideal) x0 x1 x2 x3 x4 x5 (ix2 n f) + x6 (ix2 (0 : Fin 1) f) := by
  unfold k0_pay3
  refine (shapeCast_ab_1ab_apply _ shapeCasts_S2048x128_S1x2048x128 (0 : Fin 1) n f).trans ?_
  show k0_pay2 (F := Ideal) x0 x1 x2 x3 x4 x5 (ix2 n f)
      + broadcastTo S2048x128 (shapeCast S1x128 x6 shapeCasts_S1x128_S1x128) broadcasts_S1x128_S2048x128 (ix2 n f) = _
  refine congrArg (k0_pay2 (F := Ideal) x0 x1 x2 x3 x4 x5 (ix2 n f) + ·) ?_
  refine (broadcastTo_1b_ab_apply _ broadcasts_S1x128_S2048x128 n f).trans ?_
  rw [shapeCast_self]

/-- A later step's stored value at (0, n, f): what the result holds plus the step's value. -/
theorem pay1_apply (v27 : FVec Ideal S2048x128 .f32) (v34 : Vec Ideal S1x2048x128 .f32) (n : Fin 2048) (f : Fin 128) :
    k0_pay1 (F := Ideal) v27 v34 (ix3 (0 : Fin 1) n f) = v34 (ix3 (0 : Fin 1) n f) + v27 (ix2 n f) := by
  unfold k0_pay1
  refine (shapeCast_ab_1ab_apply _ shapeCasts_S2048x128_S1x2048x128 (0 : Fin 1) n f).trans ?_
  show shapeCast S2048x128 v34 shapeCasts_S1x2048x128_S2048x128 (ix2 n f) + v27 (ix2 n f) = _
  exact congrArg (· + v27 (ix2 n f)) (shapeCast_1ab_ab_apply v34 shapeCasts_S1x2048x128_S2048x128 n f)

end Cert.KernelIdeal.Pay

end
-- ==== Proof.Spec.lean ====
/-
  A graph-convolution layer as one function of its four arrays, on the extended reals.

  For a batch entry b, a node n and an output feature f the layer is

      out (b, n, f) = ∑ m, adj (b, m, n) · support (b, m, f) + bias f,      support (b, m, f) = ∑ d, x (b, m, d) · w (d, f):

  the transposed adjacency applied to the projected node features, plus the bias (`layer`).

  The same number can be gathered in another order: the 2048 rows m cut into four stretches of 512 (one per step
  j), each stretch into four chunks of 128 (one per i), the chunks of a stretch added left to right (`step`), the
  bias added to the first stretch's total and the other three stretches then added one after the other (`tiled`).
  Addition of extended reals is associative and commutative (⊥ + ⊤ = ⊥ included), so the two orders agree on every
  input, finite or not: that is `tiled_eq_layer`, proved in the algebra module.
-/
import Idealize.ShloMosaic.PureOps.Ideal
import Idealize.ShloMosaic.Lib.ValueIdx

noncomputable section

open scoped BigOperators

namespace Cert.Gcn

open Idealize.ShloMosaic Idealize.ShloMosaic.ValueIdx

/-- The four arrays' shapes: node features, adjacency, weight, bias. -/
abbrev SX : Shape := ⟨3, ![4, 2048, 128]⟩
abbrev SA : Shape := ⟨3, ![4, 2048, 2048]⟩
abbrev SW : Shape := ⟨2, ![128, 128]⟩
abbrev SB : Shape := ⟨1, ![128]⟩

variable (x : SX.Idx → EReal) (a : SA.Idx → EReal) (w : SW.Idx → EReal) (bias : SB.Idx → EReal)

/-- The projected features: row m of batch entry b of the node features times the weight matrix, at feature f. -/
def support (b : Fin 4) (m : Fin 2048) (f : Fin 128) : EReal :=
  ∑ d : Fin 128, x (ix3 b m d) * w (ix2 d f)

/-- One term of the aggregation over the rows m: the adjacency entry (m, n) times the projected feature of row m. -/
def term (b : Fin 4) (n : Fin 2048) (f : Fin 128) (m : Fin 2048) : EReal :=
  a (ix3 b m n) * support x w b m f

/-- The layer: the transposed adjacency applied to the projected features, plus the bias. -/
def layer (b : Fin 4) (n : Fin 2048) (f : Fin 128) : EReal :=
  (∑ m : Fin 2048, term x a w b n f m) + bias (ix1 f)

/-- Row k of chunk i of stretch j: 512 j + 128 i + k. -/
def row (j i : Fin 4) (k : Fin 128) : Fin 2048 := ⟨512 * j.val + 128 * i.val + k.val, by omega⟩

/-- The terms of one chunk of 128 rows, summed. -/
def chunk (b : Fin 4) (n : Fin 2048) (f : Fin 128) (j i : Fin 4) : EReal :=
  ∑ k : Fin 128, term x a w b n f (row j i k)

/-- The four chunks of a stretch of 512 rows, added left to right. -/
def step (b : Fin 4) (n : Fin 2048) (f : Fin 128) (j : Fin 4) : EReal :=
  ((chunk x a w b n f j 0 + chunk x a w b n f j 1) + chunk x a w b n f j 2) + chunk x a w b n f j 3

/-- The layer gathered stretch by stretch: the bias joins the first stretch, the others follow in order. -/
def tiled (b : Fin 4) (n : Fin 2048) (f : Fin 128) : EReal :=
  (((step x a w b n f 0 + bias (ix1 f)) + step x a w b n f 1) + step x a w b n f 2) + step x a w b n f 3

end Cert.Gcn

end
-- ==== Proof.KI.Total.lean ====
/-
  The running total of the graph-convolution kernel's output block, on the extended reals, index by index.

  With b = n / 4 and j = n mod 4, what the output's staging buffer holds after point number n at row r and feature f
  is: at j = 0 the stretch's contribution plus the bias; at j ≠ 0 what the point before left plus the stretch's
  contribution (`total`). The contribution of stretch j is the specification's `step`: each of the four chunk products
  contracts the 128 rows of its adjacency chunk with the matching 128 rows of the projected features, and the blocks
  the windows hold at the point are exactly those rows of the arrays. By induction on the point the buffer holds
  `total`, and after the fourth point of a batch entry that is the specification's `tiled`.
-/
import proofs.«139176_g62397284876833_cont_9to1c4b_236_6_alg».proof.Proof.KI.Blocks
import proofs.«139176_g62397284876833_cont_9to1c4b_236_6_alg».proof.Proof.KI.Pieces
import proofs.«139176_g62397284876833_cont_9to1c4b_236_6_alg».proof.Proof.KI.Pay
import proofs.«139176_g62397284876833_cont_9to1c4b_236_6_alg».proof.Proof.Spec

set_option maxRecDepth 16384

noncomputable section

open scoped BigOperators

namespace Cert.KernelIdeal.Hand

open Cert.KernelIdeal Cert.KernelIdeal.Gen Cert.KernelIdeal.Pay Cert.Gcn
open Idealize.ShloMosaic Idealize.ShloMosaic.TcCoe Idealize.ShloMosaic.ValueIdx
open Idealize.SL.Sem

variable (m : (ℓ : Loc nD τ sig) → Buf (Elt Ideal) ℓ)

/-- The four argument arrays as launched, on core c. -/
abbrev aX (c : Dev nD) : SX.Idx → EReal := m ((c : Thread nD τ).loc main_arg0)
abbrev aA (c : Dev nD) : SA.Idx → EReal := m ((c : Thread nD τ).loc main_arg1)
abbrev aW (c : Dev nD) : SW.Idx → EReal := m ((c : Thread nD τ).loc main_arg2)
abbrev aB (c : Dev nD) : SB.Idx → EReal := m ((c : Thread nD τ).loc main_arg3)

/-- Point number n is batch entry n / 4, stretch n mod 4. -/
def bOf (n : ℕ) : Fin 4 := ⟨n / 4 % 4, Nat.mod_lt _ (by decide)⟩
def jOf (n : ℕ) : Fin 4 := ⟨n % 4, Nat.mod_lt _ (by decide)⟩

/-- One chunk product of the point's blocks is the specification's chunk. -/
theorem chunk_apply (c : Dev nD) (t : Fin cfg0.N) (n : Fin 2048) (f : Fin 128) (i : Fin 4)
    (xa : Vec Ideal S1x128x2048 .f32)
    (hxa : ∀ k : Fin 128, xa (ix3 (0 : Fin 1) k n) = aA m c (ix3 (bOf t.val) (row (jOf t.val) i k) n)) :
    chunkv xa (iblk m c 0 t) (iblk m c 1 t) i n f = chunk (aX m c) (aA m c) (aW m c) (bOf t.val) n f (jOf t.val) i := by
  have hN : t.val < 16 := lt_of_lt_of_eq t.isLt (show cfg0.N = 16 from N_0)
  have hb : (bOf t.val).val = t.val / 4 := by show t.val / 4 % 4 = t.val / 4; omega
  have hj : (jOf t.val).val = t.val % 4 := rfl
  unfold chunkv chunk term support sup
  refine Finset.sum_congr rfl fun k _ => ?_
  rw [hxa k]
  congr 1
  refine Finset.sum_congr rfl fun d _ => ?_
  have h0 := blk0_apply m c t (bOf t.val) (jOf t.val) hb hj ⟨128 * i.val + k.val, by omega⟩ d
  have h1 := blk1_apply m c t d f
  rw [V_main_arg0] at h0
  rw [V_main_arg2] at h1
  rw [h0, h1]
  congr 2
  funext a; apply Fin.ext
  match a with
  | ⟨0, _⟩ => rfl
  | ⟨1, _⟩ => show 512 * (jOf t.val).val + (128 * i.val + k.val) = 512 * (jOf t.val).val + 128 * i.val + k.val; omega
  | ⟨2, _⟩ => rfl

/-- The partial product of the point's blocks is the specification's contribution of the point's stretch. -/
theorem part_step (c : Dev nD) (t : Fin cfg0.N) (n : Fin 2048) (f : Fin 128) :
    k0_pay2 (F := Ideal) (iblk m c 0 t) (iblk m c 1 t) (iblk m c 2 t) (iblk m c 3 t) (iblk m c 4 t) (iblk m c 5 t) (ix2 n f)
      = step (aX m c) (aA m c) (aW m c) (bOf t.val) n f (jOf t.val) := by
  have hN : t.val < 16 := lt_of_lt_of_eq t.isLt (show cfg0.N = 16 from N_0)
  have hb : (bOf t.val).val = t.val / 4 := by show t.val / 4 % 4 = t.val / 4; omega
  have hj : (jOf t.val).val = t.val % 4 := rfl
  refine (pay2_apply (iblk m c 0 t) (iblk m c 1 t) (iblk m c 2 t) (iblk m c 3 t) (iblk m c 4 t) (iblk m c 5 t) n f).trans ?_
  unfold step
  rw [chunk_apply m c t n f 0 (iblk m c 2 t) (fun k => by
        have h := blk2_apply m c t (bOf t.val) (jOf t.val) hb hj k n
        rw [V_main_arg1] at h; exact h),
    chunk_apply m c t n f 1 (iblk m c 3 t) (fun k => by
        have h := blk3_apply m c t (bOf t.val) (jOf t.val) hb hj k n
        rw [V_main_arg1] at h; exact h),
    chunk_apply m c t n f 2 (iblk m c 4 t) (fun k => by
        have h := blk4_apply m c t (bOf t.val) (jOf t.val) hb hj k n
        rw [V_main_arg1] at h; exact h),
    chunk_apply m c t n f 3 (iblk m c 5 t) (fun k => by
        have h := blk5_apply m c t (bOf t.val) (jOf t.val) hb hj k n
        rw [V_main_arg1] at h; exact h)]

/-- The running total after point number n, at row r and feature f. -/
def total (c : Dev nD) : ℕ → Fin 2048 → Fin 128 → EReal
  | 0, r, f => step (aX m c) (aA m c) (aW m c) (bOf 0) r f (jOf 0) + aB m c (ix1 f)
  | n + 1, r, f =>
    if (n + 1) % 4 = 0 then step (aX m c) (aA m c) (aW m c) (bOf (n + 1)) r f (jOf (n + 1)) + aB m c (ix1 f)
    else total c n r f + step (aX m c) (aA m c) (aW m c) (bOf (n + 1)) r f (jOf (n + 1))

/-- A first-stretch point leaves the stretch's contribution plus the bias. -/
theorem first_apply (c : Dev nD) (t : Fin cfg0.N) (h0 : t.val % 4 = 0) (r : Fin 2048) (f : Fin 128) :
    (outsAt m c t.val t.isLt : S1x2048x128.Idx → EReal) (ix3 (0 : Fin 1) r f)
      = step (aX m c) (aA m c) (aW m c) (bOf t.val) r f (jOf t.val) + aB m c (ix1 f) := by
  rw [outsAt_A m c t h0, outA_eq]
  refine (pay3_apply (iblk m c 0 t) (iblk m c 1 t) (iblk m c 2 t) (iblk m c 3 t) (iblk m c 4 t) (iblk m c 5 t) (iblk m c 6 t) r f).trans ?_
  rw [part_step m c t r f]
  congr 1
  exact (blk6_apply m c t f).trans (bias_row m c f)

/-- A later-stretch point leaves what the point before left plus the stretch's contribution. -/
theorem later_apply (c : Dev nD) (t : Fin cfg0.N) (h0 : ¬t.val % 4 = 0) (r : Fin 2048) (f : Fin 128) :
    (outsAt m c t.val t.isLt : S1x2048x128.Idx → EReal) (ix3 (0 : Fin 1) r f)
      = (outsAt m c (t.val - 1) (Nat.lt_of_le_of_lt (Nat.sub_le _ _) t.isLt) : S1x2048x128.Idx → EReal) (ix3 (0 : Fin 1) r f)
        + step (aX m c) (aA m c) (aW m c) (bOf t.val) r f (jOf t.val) := by
  rw [outsAt_B m c t h0, outB_eq]
  refine (pay1_apply _ _ r f).trans ?_
  rw [part_step m c t r f]

/-- After every point the output's staging buffer holds the running total. -/
theorem outsAt_apply (c : Dev nD) : ∀ (n : ℕ) (h : n < cfg0.N) (r : Fin 2048) (f : Fin 128),
    (outsAt m c n h : S1x2048x128.Idx → EReal) (ix3 (0 : Fin 1) r f) = total m c n r f
  | 0, h, r, f => first_apply m c ⟨0, h⟩ rfl r f
  | n + 1, h, r, f => by
    by_cases h0 : (n + 1) % 4 = 0
    · rw [first_apply m c ⟨n + 1, h⟩ h0 r f]
      show _ = if (n + 1) % 4 = 0 then _ else _
      rw [if_pos h0]
    · rw [later_apply m c ⟨n + 1, h⟩ h0 r f]
      show _ = if (n + 1) % 4 = 0 then _ else _
      rw [if_neg h0]
      congr 1
      exact outsAt_apply c n (Nat.lt_of_succ_lt h) r f

/-- After the fourth point of batch entry b the running total is the layer gathered stretch by stretch. -/
theorem total_last (c : Dev nD) (b : Fin 4) (r : Fin 2048) (f : Fin 128) :
    total m c (4 * b.val + 3) r f = tiled (aX m c) (aA m c) (aW m c) (aB m c) b r f := by
  fin_cases b <;> rfl

end Cert.KernelIdeal.Hand

end
-- ==== Proof.KI.Run.lean ====
/-
  The run of the graph-convolution kernel's launch, and its frame.

  The launch theorem for a region whose input windows may read one array asks how the buffers behind the arrays, each
  held whole at entry, become the pipeline's per-window holdings: here the adjacency array's full share is halved
  twice into four quarters, one for each of the four windows that read it, and every other array goes whole to its
  one window. Then every weakly fair execution terminates, each window's array ends at what the proof data compute
  for it (an input: its entry contents), and the one buffer no window stages ends as the region found it. Read at
  the four argument arrays that is the frame: they end as launched.
-/
import proofs.«139176_g62397284876833_cont_9to1c4b_236_6_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

set_option maxHeartbeats 1600000 in
/-- The library's body obligation, at every point: the windows listed one by one, the output window never idle. -/
theorem body_obligation (c : Dev nD) : BodyObligation (dats (F := F) m 0 c) (defs₀ (F := F)) Variants.none () Set.univ := fun t => by
  rw [bigSep_W0, bigSep_W0]
  have h7 : idle0 (7 : Fin 8) (grid0.coords t) = false := live7 _
  simp only [h7]
  exact sound_body m c t

/-! ## The arrays at entry, window by window -/

/-- The buffers behind the eight windows' arrays are five. -/
theorem arrRefs_eq : Finset.univ.image (Pipeline.arrRef spec0) = ({main_arg0, main_arg2, main_arg1, main_call0_v0, main_v0} : Finset (Ref sig .tc)) := by
  decide

omit [FloatOps F] in
/-- Five conjuncts one by one. -/
theorem bigSep_five (Φ : Ref sig .tc → sProp 𝕄) :
    bigSep ({main_arg0, main_arg2, main_arg1, main_call0_v0, main_v0} : Finset (Ref sig .tc)) Φ
      = iprop(Φ main_arg0 ∗ Φ main_arg2 ∗ Φ main_arg1 ∗ Φ main_call0_v0 ∗ Φ main_v0) := by
  rw [bigSep_insert (by decide), bigSep_insert (by decide), bigSep_insert (by decide), bigSep_insert (by decide), bigSep_singleton]
  rfl

/-- Each window's holding of its array at entry, the array a whole buffer. -/
theorem holding_eq (c : Dev nD) (w : Fin cfg0.W) :
    (((cfg0.win w).arr.view.loc (c.tc : Thread nD τ)) ↦[(cfg0.win w).arr.view.set]{(dats m 0 c).share w} (dats m 0 c).arrAt w 0 : sProp 𝕄)
      = (((cfg0.win w).arr.view.loc (c.tc : Thread nD τ)) ↦{(dats m 0 c).share w} (dats m 0 c).arrAt w 0) := by
  rw [(arr_whole0 w).set_eq_univ]

/-- The five buffers whole at entry are the eight windows' holdings: the adjacency array's full share is cut into
    four quarters for the four windows reading it. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_congr (fun w _ => holding_eq m c w), arrRefs_eq, bigSep_W0, bigSep_five]
  iintro ⟨H0, H2, H1, H6, H7⟩
  ihave Hs := (pointsTo_share (PosShare.mem_left_op_right fullShare)).1 $$ H1
  icases Hs with ⟨Hl, Hr⟩
  ihave Hls := (pointsTo_share (PosShare.mem_left_op_right fullShare.left)).1 $$ Hl
  icases Hls with ⟨Hll, Hlr⟩
  ihave Hrs := (pointsTo_share (PosShare.mem_left_op_right fullShare.right)).1 $$ Hr
  icases Hrs with ⟨Hrl, Hrr⟩
  isplitl [H0]; · iexact H0
  isplitl [H2]; · iexact H2
  isplitl [Hll]; · iexact Hll
  isplitl [Hlr]; · iexact Hlr
  isplitl [Hrl]; · iexact Hrl
  isplitl [Hrr]; · iexact Hrr
  isplitl [H6]; · iexact H6
  iexact H7

/-! ## The run -/

-- the launch theorem's implicit arguments are found by unifying its conclusion with this one
set_option backward.isDefEq.respectTransparency.types false in
set_option maxHeartbeats 1600000 in
/-- From any memory with zero counters every weakly fair execution terminates; every window's array ends at what the
    proof data compute, every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [scopedRest0_eq]
      show _ ⊢ (BI.emp : sProp 𝕄)
      iintro ⟨-, -⟩; iempintro)
    (hout := fun c => by
      rw [scopedRest0_eq]
      show (BI.emp : sProp 𝕄) ⊢ _
      iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-! ## The frame -/

/-- The four argument arrays end as launched: the node features, the weight and the adjacency are arrays of input
    windows, which the pipeline only reads; the bias is staged by no window and bypasses the region; and the host
    operation before the region writes none of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c))),
     ((h c).2 main_arg3 (Pipeline.mem_restRefs_of main_arg3 rfl (by decide))).trans (V_main_arg3 m c)⟩) (run_main m ρ)

end Cert.KernelIdeal.Hand

end
-- ==== Proof.KI.Final.lean ====
/-
  The result array of the graph-convolution kernel's launch, on the extended reals.

  The output block of batch entry b is written back once, after its fourth point (point number 4 b + 3), when its
  staging buffer holds the layer gathered stretch by stretch. The four blocks tile the output array along its
  leading axis, so the array ends holding, at (b, n, f), that value for every index; the four argument arrays end as
  launched.
-/
import proofs.«139176_g62397284876833_cont_9to1c4b_236_6_alg».proof.Proof.KI.Total
import proofs.«139176_g62397284876833_cont_9to1c4b_236_6_alg».proof.Proof.KI.Run

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The result array: the layer gathered stretch by stretch, at every index. -/
abbrev result (c : Dev nD) : Buf (Elt Ideal) ((c : Thread nD τ).loc main_v0) :=
  fun i => tiled (aX m c) (aA m c) (aW m c) (aB m c) (i 0) (i 1) (i 2)

theorem tiled_congr (x : SX.Idx → EReal) (a : SA.Idx → EReal) (w : SW.Idx → EReal) (bias : SB.Idx → EReal)
    {b b' : Fin 4} {r r' : Fin 2048} {f f' : Fin 128} (hb : b = b') (hr : r = r') (hf : f = f') :
    tiled x a w bias b r f = tiled x a w bias b' r' f' := by subst hb hr hf; rfl

/-- What a write-back writes is the result array's block there. -/
theorem flushed_eq (c : Dev nD) (t : Fin cfg0.N) (hf : (cfg0.win 7).flush t = true) :
    (dats m 0 c).flushed 7 t = ((cfg0.win 7).blk t).view.read (Elt Ideal) (result m c) := by
  have hN : t.val < 16 := lt_of_lt_of_eq t.isLt (show cfg0.N = 16 from N_0)
  have h3 : t.val % 4 = 3 := (flush0_7 t).mp hf
  obtain ⟨-, -, -, -, -, -, -, -, -, -, -, -, -, -, -, -, -, -, -, e0, e1, e2⟩ := idx_facts t
  show (cfg0.win 7).cut (grid0.coords t) ((dats m 0 c).after 7 t) = _
  rw [after7]
  funext y
  obtain ⟨u, r, f, rfl⟩ : ∃ (u : Fin 1) (r : Fin 2048) (f : Fin 128), y = ix3 u r f := ⟨y 0, y 1, y 2, eq_ix3 y⟩
  obtain rfl : u = 0 := Subsingleton.elim _ _
  rw [View.read_apply]
  have ht : total m c t.val r f = tiled (aX m c) (aA m c) (aW m c) (aB m c) ⟨t.val / 4, by omega⟩ r f := by
    have h := total_last m c ⟨t.val / 4, by omega⟩ r f
    have e : 4 * (⟨t.val / 4, (by omega : t.val / 4 < 4)⟩ : Fin 4).val + 3 = t.val := by
      show 4 * (t.val / 4) + 3 = t.val; omega
    rwa [e] at h
  refine ((outsAt_apply m c t.val t.isLt r f).trans ht).trans ?_
  refine tiled_congr _ _ _ _ (Fin.ext ?_) (Fin.ext ?_) (Fin.ext ?_)
  · show t.val / 4 = win0_7.index t (0 : Fin 3) * 1 + 1 * 0; omega
  · show r.val = win0_7.index t (1 : Fin 3) * 2048 + 1 * r.val; omega
  · show f.val = win0_7.index t (2 : Fin 3) * 128 + 1 * f.val; omega

/-- An index of the output array is in point t's block iff each coordinate is in the block's range on its axis. -/
theorem mem_blk (t : Fin cfg0.N) (i : S4x2048x128.Idx) :
    i ∈ ((cfg0.win 7).blk t).view.set ↔ ∀ a : Fin 3, win0_7.index t a * S1x2048x128.size a ≤ (i a).val ∧ (i a).val < win0_7.index t a * S1x2048x128.size a + S1x2048x128.size a := by
  show i ∈ ((View.whole main_v0).slice (win0_7.rect t)).set ↔ _
  rw [View.set_slice_whole, Rect.mem_set_unit]
  exact Iff.rfl

/-- Every index of the output array lies in the block written back after its batch entry's fourth point. -/
theorem cover (i : S4x2048x128.Idx) : ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 128 := (i 2).isLt
  have hlt : 4 * (i 0).val + 3 < cfg0.N := by rw [show cfg0.N = 16 from N_0]; omega
  refine ⟨⟨4 * (i 0).val + 3, hlt⟩, (flush0_7 _).mpr (by show (4 * (i 0).val + 3) % 4 = 3; omega), ?_⟩
  rw [mem_blk]
  obtain ⟨-, -, -, -, -, -, -, -, -, -, -, -, -, -, -, -, -, -, -, e0, e1, e2⟩ := idx_facts ⟨4 * (i 0).val + 3, hlt⟩
  have e0' : win0_7.index ⟨4 * (i 0).val + 3, hlt⟩ (0 : Fin 3) = (i 0).val := by rw [e0]; show (4 * (i 0).val + 3) / 4 = (i 0).val; omega
  intro a
  match a with
  | ⟨0, _⟩ => show win0_7.index ⟨4 * (i 0).val + 3, hlt⟩ (0 : Fin 3) * 1 ≤ (i 0).val ∧ (i 0).val < win0_7.index ⟨4 * (i 0).val + 3, hlt⟩ (0 : Fin 3) * 1 + 1; omega
  | ⟨1, _⟩ => show win0_7.index ⟨4 * (i 0).val + 3, hlt⟩ (1 : Fin 3) * 2048 ≤ (i 1).val ∧ (i 1).val < win0_7.index ⟨4 * (i 0).val + 3, hlt⟩ (1 : Fin 3) * 2048 + 2048; omega
  | ⟨2, _⟩ => show win0_7.index ⟨4 * (i 0).val + 3, hlt⟩ (2 : Fin 3) * 128 ≤ (i 2).val ∧ (i 2).val < win0_7.index ⟨4 * (i 0).val + 3, hlt⟩ (2 : Fin 3) * 128 + 128; omega

/-- So the output array ends holding the result. -/
theorem final (c : Dev nD) : (dats m 0 c).arrAt 7 cfg0.N = result m c :=
  (dats m 0 c).arrAt_eq_of_cover 7 (result m c) (flushed_eq m c) cover

/-- The run, read: the result array at the layer gathered stretch by stretch, the four arguments unchanged. -/
theorem run_value : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 7).trans (final m c),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c))),
     ((h c).2 main_arg3 (Pipeline.mem_restRefs_of main_arg3 rfl (by decide))).trans (V_main_arg3 m c)⟩) (run_main m ρ)

end Cert.KernelIdeal.Hand

end
-- ==== Proof.RefIsSpec.lean ====
/-
  The reference program's result, read one operation at a time.

  The program projects the node features through the weight matrix (a contraction over the feature axis), applies the
  adjacency to the projection with the batch axis kept and the adjacency's row axis contracted against the projection's
  row axis (so the adjacency enters transposed), and adds the bias broadcast along the batch and node axes. Read at an
  index (b, n, f) this is ∑ m, adj (b, m, n) · (∑ d, x (b, m, d) · w (d, f)) + bias f: the layer of the specification.
-/
import proofs.«139176_g62397284876833_cont_9to1c4b_236_6_alg».proof.Proof.Gen.ReferenceIdeal.Read
import proofs.«139176_g62397284876833_cont_9to1c4b_236_6_alg».proof.Proof.Spec

noncomputable section

open scoped BigOperators

namespace Cert.Gcn.Ref

open Cert.ReferenceIdeal Cert.ReferenceIdeal.Gen Cert.ReferenceIdeal.Read Idealize.ShloMosaic Idealize.ShloMosaic.ValueIdx

/-- The adjacency's operand index of the aggregation: batch entry, contracted row, node. -/
theorem lidx_v1 (i : S4x2048x128.Idx) (k : Fin 2048) : lidx_main_v1 i k = ix3 (i 0) k (i 1) :=
  funext fun a => Fin.ext (by match a with | ⟨0, _⟩ => rfl | ⟨1, _⟩ => rfl | ⟨2, _⟩ => rfl)

/-- The projection's operand index of the aggregation: batch entry, contracted row, feature. -/
theorem ridx_v1 (i : S4x2048x128.Idx) (k : Fin 2048) : ridx_main_v1 i k = ix3 (i 0) k (i 2) :=
  funext fun a => Fin.ext (by match a with | ⟨0, _⟩ => rfl | ⟨1, _⟩ => rfl | ⟨2, _⟩ => rfl)

/-- The node features' operand index of the projection: batch entry, row, contracted feature. -/
theorem lidx_v0 (j : S4x2048x128.Idx) (d : Fin 128) : lidx_main_v0 j d = ix3 (j 0) (j 1) d :=
  funext fun a => Fin.ext (by match a with | ⟨0, _⟩ => rfl | ⟨1, _⟩ => rfl | ⟨2, _⟩ => rfl)

/-- The weight's operand index of the projection: contracted feature, output feature. -/
theorem ridx_v0 (j : S4x2048x128.Idx) (d : Fin 128) : ridx_main_v0 j d = ix2 d (j 2) :=
  funext fun a => Fin.ext (by match a with | ⟨0, _⟩ => rfl | ⟨1, _⟩ => rfl)

/-- The bias's index under the two broadcasts: the output feature. -/
theorem idx_bias (i : S4x2048x128.Idx) : idx_main_v2 (idx_main_v3 i) = ix1 (i 2) :=
  funext fun a => Fin.ext (by match a with | ⟨0, _⟩ => rfl)

/-- The projection stage is the specification's projected features, at every index. -/
theorem projection_eq (x0 : (⟨S4x2048x128, .f32⟩ : BufTy).Contents (Elt Ideal)) (x2 : (⟨S128x128, .f32⟩ : BufTy).Contents (Elt Ideal))
    (j : S4x2048x128.Idx) : val_main_v0 (F := Ideal) x0 x2 j = Cert.Gcn.support x0 x2 (j 0) (j 1) (j 2) := by
  rw [val_main_v0_apply]
  simp only [lidx_v0, ridx_v0]
  rfl

/-- The reference program's result is the layer of the specification, at every index. -/
theorem result_eq (x0 : (⟨S4x2048x128, .f32⟩ : BufTy).Contents (Elt Ideal)) (x1 : (⟨S4x2048x2048, .f32⟩ : BufTy).Contents (Elt Ideal))
    (x2 : (⟨S128x128, .f32⟩ : BufTy).Contents (Elt Ideal)) (x3 : (⟨S128, .f32⟩ : BufTy).Contents (Elt Ideal)) :
    addf (F := Ideal) (φ := .f32) (Host.dotGeneral (φ₁ := .f32) (φ₂ := .f32) dot_S4x2048x2048_S4x2048x128_S4x2048x128_1_1_2_2_0_0 none x1 (Host.dotGeneral (φ₁ := .f32) (φ₂ := .f32) dot_S4x2048x128_S128x128_S4x2048x128_2_0_01_1_n_n none x0 x2)) (broadcastInDim S4x2048x128 ![0, 1, 2] bcast_S1x1x128_S4x2048x128_0_1_2 (broadcastInDim S1x1x128 ![2] bcast_S128_S1x1x128_2 x3))
      = fun i => Cert.Gcn.layer x0 x1 x2 x3 (i 0) (i 1) (i 2) := by
  rw [val_main_v4_eq]
  funext i
  rw [val_main_v4_apply, val_main_v1_apply, val_main_v3_apply, val_main_v2_apply]
  simp only [projection_eq]
  simp only [lidx_v1, ridx_v1, idx_bias, Ideal.addf_def]
  rfl

end Cert.Gcn.Ref

end
-- ==== Proof.LibBlockedSum.lean ====
/-
  A sum of a·b terms taken b at a time.

  In any commutative additive monoid — the extended reals included, where no cancellation or distributivity is
  available but addition is still associative and commutative — the sum of `f 0, …, f (a·b − 1)` equals the sum over
  the a consecutive stretches of length b of each stretch's own sum. This is the whole algebra behind a matrix product
  whose contraction axis is cut into blocks that are accumulated one after the other.
-/
import Idealize.ShloMosaic.Lib.ValueIdx

namespace Cert.Lib.BlockedSum

open scoped BigOperators

/-- Over ranges: the stretches `b·s, …, b·s + b − 1` for `s < a` exhaust `0, …, a·b − 1`. -/
theorem sum_range_blocks {M : Type*} [AddCommMonoid M] (f : ℕ → M) (b : ℕ) :
    ∀ a : ℕ, ∑ s ∈ Finset.range a, ∑ k ∈ Finset.range b, f (b * s + k) = ∑ k ∈ Finset.range (a * b), f k
  | 0 => by simp
  | a + 1 => by
    rw [Finset.sum_range_succ, sum_range_blocks f b a, Nat.succ_mul, Finset.sum_range_add, Nat.mul_comm b a]

/-- The same with the inner and the total sum over `Fin`: the form in which a block's inner product and the whole
    inner product are read off the two programs. -/
theorem sum_fin_blocks {M : Type*} [AddCommMonoid M] (f : ℕ → M) (a b : ℕ) :
    ∑ s ∈ Finset.range a, ∑ k : Fin b, f (b * s + k.val) = ∑ k : Fin (a * b), f k.val := by
  rw [Fin.sum_univ_eq_sum_range f (a * b), ← sum_range_blocks f b a]
  exact Finset.sum_congr rfl fun s _ => Fin.sum_univ_eq_sum_range (fun k => f (b * s + k)) b

end Cert.Lib.BlockedSum
-- ==== Proof.Algebra.lean ====
/-
  The two orders of summation agree.

  The layer adds its 2048 terms in one sum and then the bias; the tiled form cuts the rows into four stretches of 512,
  each into four chunks of 128, adds the chunks of a stretch left to right, lets the bias join the first stretch and
  adds the other stretches after it. Addition of extended reals is associative and commutative, so a sum of 16 · 128
  terms is the sum of its 16 consecutive chunks, a sum of 4 · 4 chunks is the sum of its 4 consecutive stretches, and
  the bias may be moved to the end. Nothing else is used: no finiteness, no distributivity, no cancellation.
-/
import proofs.«139176_g62397284876833_cont_9to1c4b_236_6_alg».proof.Proof.Spec
import proofs.«139176_g62397284876833_cont_9to1c4b_236_6_alg».proof.Proof.LibBlockedSum

noncomputable section

open scoped BigOperators

namespace Cert.Gcn

open Idealize.ShloMosaic Idealize.ShloMosaic.ValueIdx Cert.Lib.BlockedSum

/-- The tiled order of summation gives the layer, on every input. -/
theorem tiled_eq_layer (x : SX.Idx → EReal) (a : SA.Idx → EReal) (w : SW.Idx → EReal) (bias : SB.Idx → EReal)
    (b : Fin 4) (n : Fin 2048) (f : Fin 128) : tiled x a w bias b n f = layer x a w bias b n f := by
  -- the terms as a sequence on ℕ (zero past the last row), the chunk sums c and the stretch sums S
  let h : ℕ → EReal := fun m => if hm : m < 2048 then term x a w b n f ⟨m, hm⟩ else 0
  let c : ℕ → EReal := fun s => ∑ k : Fin 128, h (128 * s + k.val)
  let S : ℕ → EReal := fun j => ∑ i : Fin 4, c (4 * j + i.val)
  -- chunk i of stretch j is the chunk number 4 j + i of the whole sequence
  have hchunk : ∀ j i : Fin 4, chunk x a w b n f j i = c (4 * j.val + i.val) := by
    intro j i
    refine Finset.sum_congr rfl fun k _ => ?_
    have hlt : 128 * (4 * j.val + i.val) + k.val < 2048 := by omega
    show term x a w b n f (row j i k)
      = if hm : 128 * (4 * j.val + i.val) + k.val < 2048 then term x a w b n f ⟨_, hm⟩ else 0
    rw [dif_pos hlt]
    congr 1
    apply Fin.ext
    show 512 * j.val + 128 * i.val + k.val = 128 * (4 * j.val + i.val) + k.val
    omega
  -- a stretch is its four chunks
  have hstep : ∀ j : Fin 4, step x a w b n f j = S j.val := by
    intro j
    show ((chunk x a w b n f j 0 + chunk x a w b n f j 1) + chunk x a w b n f j 2) + chunk x a w b n f j 3
      = ∑ i : Fin 4, c (4 * j.val + i.val)
    rw [Fin.sum_univ_four, hchunk, hchunk, hchunk, hchunk]
  -- the whole sum is its sixteen chunks, and these are the four stretches
  have hterms : ∑ m : Fin 2048, term x a w b n f m = ∑ m : Fin 2048, h m.val := by
    refine Finset.sum_congr rfl fun m _ => ?_
    show term x a w b n f m = if hm : m.val < 2048 then term x a w b n f ⟨m.val, hm⟩ else 0
    rw [dif_pos m.isLt]
  have hchunks : ∑ s ∈ Finset.range 16, c s = ∑ m : Fin 2048, h m.val := sum_fin_blocks h 16 128
  have hstretches : ∑ j ∈ Finset.range 4, S j = ∑ s : Fin 16, c s.val := sum_fin_blocks c 4 4
  have hall : ∑ m : Fin 2048, term x a w b n f m = ∑ j : Fin 4, S j.val := by
    rw [hterms, ← hchunks, ← Fin.sum_univ_eq_sum_range c 16, ← hstretches, Fin.sum_univ_eq_sum_range S 4]
  -- the bias moves to the end
  show (((step x a w b n f 0 + bias (ix1 f)) + step x a w b n f 1) + step x a w b n f 2) + step x a w b n f 3
    = (∑ m : Fin 2048, term x a w b n f m) + bias (ix1 f)
  rw [hall, Fin.sum_univ_four, hstep, hstep, hstep, hstep]
  ac_rfl

end Cert.Gcn

end
-- ==== Proof.lean ====
/-
  A graph-convolution layer, out[b] = adj[b]ᵀ · (x[b] · w) + bias, computed by a Pallas kernel on a 4 × 4 grid (batch
  entry b, stretch j of 512 adjacency rows) against its jnp reference: the claim's five parts.

  The frames. The kernel's launch is one pipeline of eight windows, four of them on one array (the adjacency, read
  in four 128-row chunks per point). Each body run is carried out once per case of the branch on j, on symbolic
  staging memrefs, for any float values; the launch theorem for input windows that share an array then gives the run,
  the adjacency array's share cut in four among its windows. The word-level program and its idealization have the same
  text (the idealization rewrote nothing), so the two frames are the same proof over the two programs' constants. The
  reference has no kernel: its frame is its run with the result dropped.

  The values. On the extended reals a change of float format is the identity and a product into a zero accumulator
  is the plain sum of products, so the kernel's result at (b, n, f) is the sum over the rows m of
  adj (b, m, n) · (∑ d, x (b, m, d) · w (d, f)) gathered in the kernel's order — four stretches of four chunks of 128
  rows, the bias joined to the first stretch — and the reference's is the same sum taken at once, plus the bias.
  Addition of extended reals is associative and commutative on all inputs, infinite ones included, so the two agree
  with no use of the precondition.
-/
import proofs.«139176_g62397284876833_cont_9to1c4b_236_6_alg».proof.Defs
import proofs.«139176_g62397284876833_cont_9to1c4b_236_6_alg».proof.Proof.K.Run
import proofs.«139176_g62397284876833_cont_9to1c4b_236_6_alg».proof.Proof.KI.Final
import proofs.«139176_g62397284876833_cont_9to1c4b_236_6_alg».proof.Proof.RefIsSpec
import proofs.«139176_g62397284876833_cont_9to1c4b_236_6_alg».proof.Proof.Algebra
import proofs.«139176_g62397284876833_cont_9to1c4b_236_6_alg».proof.Proof.Gen.ReferenceIdeal
import proofs.«139176_g62397284876833_cont_9to1c4b_236_6_alg».proof.Proof.Gen.Pre_finite_inputs
import Idealize.ShloMosaic.Adequacy
import Idealize.ShloMosaic.Init

noncomputable section

namespace Cert.Proof

open Idealize.ShloMosaic Idealize.ShloMosaic.TcCoe Idealize.SL.Sem

section
variable [hK : Cert.Kernel.Facts] [hKI : Cert.KernelIdeal.Facts] [hR : Cert.ReferenceIdeal.Facts] [hP : Cert.Pre_finite_inputs.Facts]

/-- The word-level kernel runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the layer at every index: the kernel gathered stretch by stretch, the reference
    in one sum; the two orders agree on the extended reals. -/
theorem algebraic : Cert.algebraic_KernelIdeal_ReferenceIdeal := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.Gcn.Ref.result_eq _ _ _ _).trans ?_
  funext i
  exact (Cert.Gcn.tiled_eq_layer _ _ _ _ (i 0) (i 1) (i 2)).symm

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
